-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S512x256 : Shape := ⟨2, ![512, 256]⟩
abbrev S1024x256 : Shape := ⟨2, ![1024, 256]⟩
abbrev S512x1 : Shape := ⟨2, ![512, 1]⟩
abbrev S1x1024 : Shape := ⟨2, ![1, 1024]⟩
abbrev S512 : Shape := ⟨1, ![512]⟩
abbrev S1024 : Shape := ⟨1, ![1024]⟩
abbrev S1024x1 : Shape := ⟨2, ![1024, 1]⟩
abbrev S256x1024 : Shape := ⟨2, ![256, 1024]⟩
abbrev S512x1024 : Shape := ⟨2, ![512, 1024]⟩
abbrev S_ : Shape := ⟨0, ![]⟩

abbrev nBuf : Space → Nat
  | .hbm => 9
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1024x256, .f32⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v107 : BitVec 1 := Scalar.cmpi .eq arg1 c7_i32
  let v108 : BitVec 32 := Scalar.extui v107
  let c0_i32_45 : BitVec 32 := 0#32
  let v109 : BitVec 1 := Scalar.cmpi .ne v108 c0_i32_45
  v109

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  reduces_S512x256_S512 : S512x256.Reduces [1] S512
  shapeCasts_S512_S512x1 : S512.ShapeCasts S512x1
  reduces_S1024x256_S1024 : S1024x256.Reduces [1] S1024
  shapeCasts_S1024_S1024x1 : S1024.ShapeCasts S1024x1
  broadcasts_S512x1_S512x256 : S512x1.Broadcasts S512x256
  broadcasts_S1024x1_S1024x256 : S1024x1.Broadcasts S1024x256
  transposes_S1024x1_p1_0_S1x1024 : S1024x1.Transposes [1, 0] S1x1024
  bitsLt_bf16_f32 : FTy.bits .bf16 < FTy.bits .f32
  transposes_S1024x256_p1_0_S256x1024 : S1024x256.Transposes [1, 0] S256x1024
  broadcasts_S512x1_S512x1024 : S512x1.Broadcasts S512x1024
  broadcasts_S1x1024_S512x1024 : S1x1024.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S512x1024_d0_w32 : S512x1024.Iotas .tc 32 [0]
  iota_S512x1024_d1_w32 : S512x1024.Iotas .tc 32 [1]
  reduces_S512x1024_S512 : S512x1024.Reduces [1] S512
  natLt_1_32 : 1 < 32
  reducesTo_S8192x1_S_d0_1 : S8192x1.ReducesTo [0, 1] S_
  h_S_ : 0 < S_.numel
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S256x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .i32⟩
  | .hbm, ⟨37, _⟩ => ⟨S8192x8192, .i32⟩
  | .hbm, ⟨38, _⟩ => ⟨S_, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S8192x8192, .i1⟩
  | .hbm, ⟨43, _⟩ => ⟨S8192x8192, .i1⟩
  | .hbm, ⟨44, _⟩ => ⟨S8192x8192, .i1⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192, .f32⟩
  | .hbm, ⟨57, _⟩ => ⟨S8192x8192, .i32⟩
  | .hbm, ⟨58, _⟩ => ⟨S_, .i32⟩
  | .hbm, ⟨59, _⟩ => ⟨S8192, .i32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192x8192, .f32⟩
  | .hbm, ⟨67, _⟩ => ⟨S8192x8192, .i1⟩
  | .hbm, ⟨68, _⟩ => ⟨S8192x8192, .i1⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S8192, .f32⟩
  | .hbm, ⟨83, _⟩ => ⟨S_, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_call3_v0 : Ref sig .tc := ⟨.hbm, 77, rfl⟩
abbrev main_call3_v1 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_16 : Ref sig .tc := ⟨.hbm, 90, rfl⟩
abbrev main_v60 : Ref sig .tc := ⟨.hbm, 91, rfl⟩
abbrev main_cst_17 : Ref sig .tc := ⟨.hbm, 92, rfl⟩
abbrev main_v61 : Ref sig .tc := ⟨.hbm, 93, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  natLt_1_32 : 1 < 32
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.FrameRunsK.lean ====
/-
  What the three control cases of the kernel body share: the two branch conditions in closed form over the grid
  (the accumulators are reset where the column-block coordinate is 0, the output block is stored where it is 7),
  where the output window is idle, the staging and scratch memrefs the body is called with at a point, and the
  region's scoped rest spelt as the four accumulators owned at some contents.
-/
import proofs.«144597_j3556232921179_1_alg».proof.Proof.Gen.Kernel.Launch
import proofs.«144597_j3556232921179_1_alg».proof.Proof.Gen.Kernel.Skeleton
import proofs.«144597_j3556232921179_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions -/

/-- The reset branch is taken: the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The finishing branch is taken: the column-block coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block the body stores nothing into the output block and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S512x1 .f32 := (Memref.whole cc0_stg4_0 : Memref sig .tc .vmem S512x1 .f32).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The four running sums, whole scoped buffers of the kernel's own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view

/-- The region's scoped rest: the four running sums owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.FrameRunAK.lean ====
/-
  The kernel body run symbolically in the case where the accumulators are reset and the output block is not stored
  (column block 0): every running sum is overwritten by zero and then by zero plus this block's partial sum; the
  output's buffer is handed back untouched. The pieces each running sum ends with are found by the run.
-/
import proofs.«144597_j3556232921179_1_alg».proof.Proof.FrameRunsK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32) :
    Σ' (L4 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__ranked_list_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0__ranked_list_kernel_eq_skeleton]; unfold cc0__ranked_list_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexists _; iexact HS0
    isplitl [HS1]; · iexists _; iexact HS1
    isplitl [HS2]; · iexists _; iexact HS2
    iexists _; iexact HS3

end Cert.Kernel.Gen

end
-- ==== Proof.FrameRunBK.lean ====
/-
  The kernel body run symbolically in the middle case (column blocks 1 to 6): each running sum, found at what the
  point before left, is overwritten by itself plus this block's partial sum; the output's buffer is handed back
  untouched.
-/
import proofs.«144597_j3556232921179_1_alg».proof.Proof.FrameRunAK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__ranked_list_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0__ranked_list_kernel_eq_skeleton]; unfold cc0__ranked_list_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Gen

end
-- ==== Proof.FrameRunCK.lean ====
/-
  The kernel body run symbolically in the last case (column block 7): each running sum is overwritten by itself
  plus this block's partial sum, and the output block is stored whole: the quotient of the hinge sum by the shifted
  count plus the quotient of the weighted sum by the shifted weight sum.
-/
import proofs.«144597_j3556232921179_1_alg».proof.Proof.FrameRunBK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__ranked_list_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__ranked_list_kernel_eq_skeleton]; unfold cc0__ranked_list_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Gen

end
-- ==== Proof.FrameOutsK.lean ====
/-
  What the running sums and the output block hold after each grid point, by recursion on the point: at column
  block 0 the reset case, at column block 7 the finishing case over what the point before left, otherwise the
  middle case over what the point before left. The pieces of every case cover their buffers, so each buffer's
  contents after the body are those pieces read back.
-/
import proofs.«144597_j3556232921179_1_alg».proof.Proof.FrameRunCK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: after the two reshapes of the labels. -/
abbrev V0 (c : Dev nD) : Valuation τ sig (Elt F) := StableHlo.after (hostOps0 (F := F)) (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Every case's pieces cover their buffers -/

theorem cover0_A_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32)  (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3 ).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 ).2.1 S512x1.size (by sl_kernel_rfl) y

theorem cover0_A_2 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32)  (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3 ).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 ).2.2.1 S512x1.size (by sl_kernel_rfl) y

theorem cover0_A_3 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32)  (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3 ).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 ).2.2.2.1 S512x1.size (by sl_kernel_rfl) y

theorem cover0_A_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32)  (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3 ).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 ).2.2.2.2.1 S512x1.size (by sl_kernel_rfl) y

theorem cover0_B_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.1 S512x1.size (by sl_kernel_rfl) y

theorem cover0_B_2 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.1 S512x1.size (by sl_kernel_rfl) y

theorem cover0_B_3 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1 S512x1.size (by sl_kernel_rfl) y

theorem cover0_B_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.2.1 S512x1.size (by sl_kernel_rfl) y

theorem cover0_C_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).1 S512x1.size (by sl_kernel_rfl) y

theorem cover0_C_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.1 S512x1.size (by sl_kernel_rfl) y

theorem cover0_C_2 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.1 S512x1.size (by sl_kernel_rfl) y

theorem cover0_C_3 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1 S512x1.size (by sl_kernel_rfl) y

theorem cover0_C_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1 S512x1.size (by sl_kernel_rfl) y

/-! ## What one point leaves, per case -/

/-- The output block's buffer and the four running sums. -/
abbrev Outs (F : FTy → Type) [FloatOps F] : Type := Vec F S512x1 .f32 × Vec F S512x1 .f32 × Vec F S512x1 .f32 × Vec F S512x1 .f32 × Vec F S512x1 .f32

def outA (c : Dev nD) (t : Fin cfg0.N) (h0 : cond0_0 (grid0.coords t)) (h1 : ¬cond0_1 (grid0.coords t)) : Outs F :=
  (VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)).1),
    VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)).2.1),
    VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)).2.2.1),
    VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)).2.2.2.1),
    VS0_3.read (Elt F) (VS0_3.writes (Elt F) VS0_3.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)).2.2.2.2.1))

def outB (c : Dev nD) (t : Fin cfg0.N) (h0 : ¬cond0_0 (grid0.coords t)) (h1 : ¬cond0_1 (grid0.coords t)) (p : Outs F) : Outs F :=
  (VO0_4.read (Elt F) (VO0_4.writes (Elt F) VO0_4.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).1),
    VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.1),
    VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.1),
    VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.2.1),
    VS0_3.read (Elt F) (VS0_3.writes (Elt F) VS0_3.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.2.2.1))

def outC (c : Dev nD) (t : Fin cfg0.N) (h0 : ¬cond0_0 (grid0.coords t)) (h1 : cond0_1 (grid0.coords t)) (p : Outs F) : Outs F :=
  (VO0_4.read (Elt F) (VO0_4.writes (Elt F) VO0_4.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).1),
    VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.1),
    VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.1),
    VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.2.1),
    VS0_3.read (Elt F) (VS0_3.writes (Elt F) VS0_3.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.2.2.1))

/-! ## What the buffers hold after each point -/

def outsAt0 (c : Dev nD) : (n : ℕ) → n < cfg0.N → Outs F
  | 0, hn => outA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      outA m c ⟨n + 1, hn⟩ ((hcond0_0 ⟨n + 1, hn⟩).mpr h0) (fun h => (fun h => by (try dsimp only at h); omega) ((hcond0_1 ⟨n + 1, hn⟩).mp h))
    else
      if h1 : (n + 1) % 8 = 7 then
        outC m c ⟨n + 1, hn⟩ (fun h => h0 ((hcond0_0 ⟨n + 1, hn⟩).mp h)) ((hcond0_1 ⟨n + 1, hn⟩).mpr h1) (outsAt0 c n (Nat.lt_of_succ_lt hn))
      else
        outB m c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 8 = 0) (h1 : ¬t.val % 8 = 7) :
    outsAt0 m c t.val t.isLt = outA m c t ((hcond0_0 t).mpr h0) (fun h => h1 ((hcond0_1 t).mp h)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = outB m c t (fun h => h0 ((hcond0_0 t).mp h)) (fun h => h1 ((hcond0_1 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = outC m c t (fun h => h0 ((hcond0_0 t).mp h)) ((hcond0_1 t).mpr h1) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point the scoped rest at anything; afterwards the four running sums at what the point before
    left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- The arrays as the region finds them; after the body each input's buffer at its block and the output's at the
    recursion's first component; the two windows on the feature matrix hold it at complementary shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Gen

end
-- ==== Proof.FrameBodyK.lean ====
/-
  The body obligation at a generic grid point: the inputs' buffers hold their blocks, the closed forms of the two
  conditions say which case the point is in, the invariant hands the body the four running sums (at anything at
  the first point, else at what the point before left) and takes them back at this point's contents.
-/
import proofs.«144597_j3556232921179_1_alg».proof.Proof.FrameOutsK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold outA; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (cover0_A_1 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_A_2 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_A_3 c _ _ _ _ _ _ _ _ _ _ _ _ _ _ _ _ _ _ _ _ _ _ _ _ _)
          unfold owns; iexists _; isplitr
          swap; · iexact HS3
          ipureintro; exact View.read_writes_of_cover _ _ _ _ _ (cover0_A_4 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (cover0_A_1 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_A_2 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_A_3 c _ _ _ _ _ _ _ _ _ _ _ _ _ _ _ _ _ _ _ _ _ _ _ _ _)
          unfold owns; iexists _; isplitr
          swap; · iexact HS3
          ipureintro; exact View.read_writes_of_cover _ _ _ _ _ (cover0_A_4 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold outC; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (cover0_C_1 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_C_2 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_C_3 c _ _ _ _ _ _ _ _ _ _ _ _ _ _ _ _ _ _ _ _ _ _ _ _ _ _ _ _ _)
          unfold owns; iexists _; isplitr
          swap; · iexact HS3
          ipureintro; exact View.read_writes_of_cover _ _ _ _ _ (cover0_C_4 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_0 c _ _ _ _ _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold outB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (cover0_B_1 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_B_2 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_B_3 c _ _ _ _ _ _ _ _ _ _ _ _ _ _ _ _ _ _ _ _ _ _ _ _ _ _ _ _ _)
          unfold owns; iexists _; isplitr
          swap; · iexact HS3
          ipureintro; exact View.read_writes_of_cover _ _ _ _ _ (cover0_B_4 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the sums' named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.Kernel.Gen

end
-- ==== Proof.FrameLaunchK.lean ====
/-
  The launch: @main as three segments — the two reshapes of the labels, the kernel region, the sum and the
  division after it. The region is entered from every unscoped buffer held whole; the feature matrix, which two
  input windows read, is split into two complementary shares for them and put together again at the exit; the
  output array comes back at what the write-backs left, every other buffer as it was.
-/
import proofs.«144597_j3556232921179_1_alg».proof.Proof.FrameBodyK
import Idealize.ShloMosaic.Lib.Pipeline.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev Lr : GSem nD τ sig → Finset Unit := fun _ => ∅
abbrev lvr : GSem nD τ sig → Unit → ℕ := fun _ _ => 0
abbrev adm : (p : Fin 1) → (pcfgs (F := F) p).Adm := fun p => (cfgs p).toPCfg_adm

/-- Core `c`'s buffers at launch, -/
abbrev Vl (c : Dev nD) : Valuation τ sig (Elt F) := fun b => m (c, b)
/-- after the region (the output array at what the write-backs left, the rest as the region found it), -/
def W2 (c : Dev nD) : Valuation τ sig (Elt F) :=
  Function.update (V0 m c) (Proc.devRef .tc main_v2) ((dats m 0 c).arrAt 4 cfg0.N)
/-- and at the end. -/
abbrev W3 (c : Dev nD) : Valuation τ sig (Elt F) := StableHlo.after (hostOps1 (F := F)) (W2 m c)

/-- One unscoped buffer whole at a valuation. -/
abbrev pt (c : Dev nD) (W : Valuation τ sig (Elt F)) (b : Ref sig .tc) : sProp 𝕄 :=
  ((c : Thread nD τ).loc b) ↦{fullShare} W (Proc.devRef .tc b)

/-- Every unscoped buffer held at a valuation, one by one: the four arrays the windows read or write, then the rest. -/
theorem held_chain (c : Dev nD) (W : Valuation τ sig (Elt F)) :
    (StableHlo.held (c : Thread nD τ) (Pipeline.ucRefs τ sig) W : sProp 𝕄)
      = iprop((pt c W main_arg0 ∗ pt c W main_v0 ∗ pt c W main_v1 ∗ pt c W main_v2)
          ∗ pt c W main_arg1 ∗ pt c W main_cst ∗ pt c W main_v3 ∗ pt c W main_cst_0 ∗ pt c W main_v4) := by
  rw [← Pipeline.unscopedBufs_held c W, Pipeline.unscopedBufs_split₀ cfgs (0 : Fin 1) winFacts₀0.arr_unscoped c, unscopedRest0_eq]
  unfold Pipeline.arrBufs
  rw [BI.bigSep_eq_bigSepL_of_eq [main_arg0, main_v0, main_v1, main_v2] (by decide) (by decide)]
  rfl

/-- The windows' arrays at contents `Fv`, one by one: the feature matrix at two complementary shares. -/
theorem arrays_chain (c : Dev nD) (Fv : (w : Fin cfg0.W) → Buf (Elt F) ((cfg0.win w).arr.view.loc (c : Thread nD τ))) :
    ((dats m 0 c).arrays Fv : sProp 𝕄)
      = iprop((((c : Thread nD τ).loc main_arg0) ↦{fullShare.left} Fv 0) ∗ (((c : Thread nD τ).loc main_arg0) ↦{fullShare.right} Fv 1)
          ∗ (((c : Thread nD τ).loc main_v0) ↦{fullShare} Fv 2) ∗ (((c : Thread nD τ).loc main_v1) ↦{fullShare} Fv 3)
          ∗ (((c : Thread nD τ).loc main_v2) ↦{fullShare} Fv 4)) := by
  unfold Pipeline.Dat.arrays
  rw [bigSep_W0]
  rw [(arr_whole0 0).set_eq_univ, (arr_whole0 2).set_eq_univ, (arr_whole0 3).set_eq_univ, (arr_whole0 4).set_eq_univ]
  rfl

/-- What rides beside the buffers: the generator register and the core's (empty) debts. -/
abbrev Rr (c : Dev nD) : sProp 𝕄 := iprop((∃ r, prngReg c r) ∗ ∃ W, owes (c : Thread nD τ) (0 : CellTallies nD τ sig Unit) W)

def seg0 : Pipeline.HostSeg (Name := ℕ) (U := UR sig nD τ) (pcfgs (F := F)) defs₀ 𝒱₀ Lr lvr :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vl m) Rr

def seg1 : Pipeline.HostSeg (Name := ℕ) (U := UR sig nD τ) (pcfgs (F := F)) defs₀ 𝒱₀ Lr lvr :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W2 m) Rr

theorem W2_v2 (c : Dev nD) : W2 m c (Proc.devRef .tc main_v2) = (dats m 0 c).arrAt 4 cfg0.N := by
  unfold W2; rw [Function.update_self]

theorem W2_ne (c : Dev nD) (b : Ref sig .tc) (hb : b ≠ main_v2) : W2 m c (Proc.devRef .tc b) = V0 m c (Proc.devRef .tc b) := by
  unfold W2; rw [Function.update_of_ne (fun e => hb (Proc.devRef_injective _ e))]

theorem pt_W2_ne (c : Dev nD) (b : Ref sig .tc) (hb : b ≠ main_v2) : (pt c (W2 m c) b : sProp 𝕄) = pt c (V0 m c) b := by
  unfold pt; rw [W2_ne m c b hb]

theorem pt_W2_v2 (c : Dev nD) : (pt c (W2 m c) main_v2 : sProp 𝕄) = (((c : Thread nD τ).loc main_v2) ↦{fullShare} (dats m 0 c).arrAt 4 cfg0.N) := by
  unfold pt; rw [W2_v2]

theorem A0_eq (c : Dev nD) : (dats m 0 c).A 0 = V0 m c (Proc.devRef .tc main_arg0) := rfl
theorem A1_eq (c : Dev nD) : (dats m 0 c).A 1 = V0 m c (Proc.devRef .tc main_arg0) := rfl
theorem A2_eq (c : Dev nD) : (dats m 0 c).A 2 = V0 m c (Proc.devRef .tc main_v0) := rfl
theorem A3_eq (c : Dev nD) : (dats m 0 c).A 3 = V0 m c (Proc.devRef .tc main_v1) := rfl

set_option backward.isDefEq.respectTransparency.types false in
def reg0 : Pipeline.RegionSeg (pcfgs (F := F)) adm (dats m) () defs₀ 𝒱₀ Lr lvr 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lr lvr 0 fun _ _ => rfl
  pre c := iprop(StableHlo.held (c : Thread nD τ) (Pipeline.ucRefs τ sig) (V0 m c) ∗ Rr c)
  post c := iprop(StableHlo.held (c : Thread nD τ) (Pipeline.ucRefs τ sig) (W2 m c) ∗ Rr c)
  X c := iprop(∃ r, prngReg c r)
  Y c := iprop(∃ r, prngReg c r)
  Z c := iprop(pt c (V0 m c) main_arg1 ∗ pt c (V0 m c) main_cst ∗ pt c (V0 m c) main_v3 ∗ pt c (V0 m c) main_cst_0 ∗ pt c (V0 m c) main_v4)
  hentry c := by
    rw [held_chain, arrays_chain]
    iintro ⟨⟨⟨⟨Ha0, Hv0, Hv1, Hv2⟩, Hrest⟩, ⟨Hp, HO⟩⟩, -, -⟩
    ihave Hs := (pointsTo_share (PosShare.mem_left_op_right fullShare)).1 $$ Ha0
    icases Hs with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (hin m c)
    unfold Pipeline.ΦA
    isplitl [Hr] <;> iassumption
  hout c := by
    rw [Pipeline.ownSems0_none]
    refine (hout m c).trans ?_
    unfold Pipeline.ΦA
    iintro ⟨Hr, Hp⟩
    isplitl [Hp]; · iexact Hp
    isplitr; · iempintro
    iexact Hr
  hexit c := by
    rw [held_chain, arrays_chain]
    rw [(dats m 0 c).arrAt_in 0 rfl, (dats m 0 c).arrAt_in 1 rfl, (dats m 0 c).arrAt_in 2 rfl, (dats m 0 c).arrAt_in 3 rfl]
    rw [A0_eq, A1_eq, A2_eq, A3_eq]
    rw [pt_W2_ne m c main_arg0 (by decide), pt_W2_ne m c main_v0 (by decide), pt_W2_ne m c main_v1 (by decide), pt_W2_v2,
      pt_W2_ne m c main_arg1 (by decide), pt_W2_ne m c main_cst (by decide), pt_W2_ne m c main_v3 (by decide), pt_W2_ne m c main_cst_0 (by decide), pt_W2_ne m c main_v4 (by decide)]
    iintro ⟨⟨Hl, Hr, Hv0, Hv1, Hv2⟩, HO, Hp, ⟨H1, Hc, H3, Hc0, H4⟩⟩
    ihave Ha0 := (pointsTo_share (PosShare.mem_left_op_right fullShare)).2 $$ [Hl Hr]
    · isplitl [Hl] <;> iassumption
    imodintro
    isplitr [Hp HO]
    · isplitl [Ha0 Hv0 Hv1 Hv2]
      · isplitl [Ha0]; · iexact Ha0
        isplitl [Hv0]; · iexact Hv0
        isplitl [Hv1]; · iexact Hv1
        iexact Hv2
      isplitl [H1]; · iexact H1
      isplitl [Hc]; · iexact Hc
      isplitl [H3]; · iexact H3
      isplitl [Hc0]; · iexact Hc0
      iexact H4
    · isplitl [Hp]; · iexact Hp
      unfold Pipeline.Dat.owesAt Pipeline.owesWithin
      icases HO with ⟨%W, -, HO⟩; iexists W; iexact HO

abbrev segs : List (Pipeline.Seg (pcfgs (F := F)) adm (dats m) () defs₀ 𝒱₀ Lr lvr) := [.host (seg0 m), .region (reg0 m), .host (seg1 m)]

/-- What every final state satisfies: each unscoped buffer holds the last valuation. -/
def QC : PUnit × MemSt nD τ sig (Elt F) → Prop := fun r =>
  ∀ c : Dev nD, ∀ b ∈ Pipeline.ucRefs τ sig, r.2.mem ((c : Thread nD τ).1, b) = W3 m c b

set_option backward.isDefEq.respectTransparency.types false in
theorem run_main : θ_run defs (onTc (τ := τ) (main (F := F))) ⟨m, fun _ => 0, ρ⟩ (QC m) :=
  Pipeline.θ_run_regions_kit (pcfgs (F := F)) adm (dats m) () cellOf_inj emb₁ defs₀ 𝒱₀ Lr lvr m ρ main (segs m)
    (fun c Q => by rw [main_segs adm (dats m) () 𝒱₀ Lr lvr (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ Rr c))
    (Tₙ := fun c => iprop(StableHlo.held (c : Thread nD τ) (Pipeline.ucRefs τ sig) (W3 m c) ∗ ∃ r, prngReg c r))
    (hch := ⟨fun _ => .rfl, fun _ => .rfl, fun _ => .rfl, fun c => by
      show (iprop(StableHlo.held (c : Thread nD τ) (Pipeline.ucRefs τ sig) (StableHlo.after (hostOps1 (F := F)) (W2 m c)) ∗ Rr c) : sProp 𝕄) ⊢ _
      iintro ⟨Hh, Hp, HO⟩
      isplitr [HO]
      · isplitl [Hh] <;> iassumption
      · iexact HO⟩)
    (hinit := by
      refine Pipeline.initEach Lr lvr fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W3 m c b)
    (hfin := fun c s' => by
      iintro ⟨⟨Hh, -⟩, HSI⟩
      unfold StableHlo.held
      ihave Hr := (pointsTo_read_all (Pipeline.ucRefs τ sig) (fun b => ((c : Thread nD τ).1, b)) (W3 m c) s') $$ [Hh HSI]
      · isplitl [Hh] <;> iassumption
      icases Hr with ⟨%h, HSI⟩
      imodintro
      isplitr; · ipureintro; exact h
      iexact HSI)
    (hQ := fun _ h => h)

end Cert.Kernel.Gen

end
-- ==== Proof.FrameEndK.lean ====
/-
  The frame, read off the launch's post: the two argument arrays are written by no host operation and by no
  write-back, so every final state holds them as launched.
-/
import proofs.«144597_j3556232921179_1_alg».proof.Proof.FrameLaunchK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two reshapes write only their own results. -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, Finset.mem_singleton] <;>
    exact StableHlo.devRef_ne_of_ne ‹_›

/-- The four operations after the region write only their own results. -/
theorem not_written1 (b : Ref sig .tc) (hb : b ≠ main_cst ∧ b ≠ main_v3 ∧ b ≠ main_cst_0 ∧ b ≠ main_v4) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.nullary_writes, StableHlo.binary_writes, Finset.mem_singleton] <;>
    exact StableHlo.devRef_ne_of_ne ‹_›

/-- A buffer nothing writes ends as launched. -/
theorem W3_kept (c : Dev nD) (b : Ref sig .tc) (h0 : b ≠ main_v0 ∧ b ≠ main_v1) (h1 : b ≠ main_cst ∧ b ≠ main_v3 ∧ b ≠ main_cst_0 ∧ b ≠ main_v4)
    (h2 : b ≠ main_v2) : W3 m c (Proc.devRef .tc b) = m ((c : Thread nD τ).loc b) :=
  (StableHlo.after_of_forall_not_mem (b := Proc.devRef .tc b) hostOps1 (W2 m c) (not_written1 b h1)).trans
    ((W2_ne m c b h2).trans (StableHlo.after_of_forall_not_mem (b := Proc.devRef .tc b) hostOps0 (Vl m c) (not_written0 b h0)))

theorem mem_uc (b : Ref sig .tc) (hb : b.isScoped = false) : Proc.devRef (τ := τ) .tc b ∈ Pipeline.ucRefs τ sig := by
  unfold Pipeline.ucRefs StableHlo.tcRefs
  simp only [Finset.mem_filter, Finset.mem_map, Finset.mem_univ, true_and]
  exact ⟨⟨b, rfl⟩, by simpa using hb⟩

/-- The frame: @main terminates from any memory and leaves both arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 rfl)).trans (W3_kept m c main_arg0 (by decide) (by decide) (by decide)),
       (h c _ (mem_uc main_arg1 rfl)).trans (W3_kept m c main_arg1 (by decide) (by decide) (by decide))⟩)
    (run_main m ρ)

end Cert.Kernel.Gen

end
-- ==== Proof.FrameRunsI.lean ====
/-
  What the three control cases of the kernel body share: the two branch conditions in closed form over the grid
  (the accumulators are reset where the column-block coordinate is 0, the output block is stored where it is 7),
  where the output window is idle, the staging and scratch memrefs the body is called with at a point, and the
  region's scoped rest spelt as the four accumulators owned at some contents.
-/
import proofs.«144597_j3556232921179_1_alg».proof.Proof.Gen.KernelIdeal.Launch
import proofs.«144597_j3556232921179_1_alg».proof.Proof.Gen.KernelIdeal.Skeleton
import proofs.«144597_j3556232921179_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions -/

/-- The reset branch is taken: the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The finishing branch is taken: the column-block coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block the body stores nothing into the output block and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S512x1 .f32 := (Memref.whole cc0_stg4_0 : Memref sig .tc .vmem S512x1 .f32).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The four running sums, whole scoped buffers of the kernel's own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view

/-- The region's scoped rest: the four running sums owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.FrameRunAI.lean ====
/-
  The kernel body run symbolically in the case where the accumulators are reset and the output block is not stored
  (column block 0): every running sum is overwritten by zero and then by zero plus this block's partial sum; the
  output's buffer is handed back untouched. The pieces each running sum ends with are found by the run.
-/
import proofs.«144597_j3556232921179_1_alg».proof.Proof.FrameRunsI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32) :
    Σ' (L4 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__ranked_list_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0__ranked_list_kernel_eq_skeleton]; unfold cc0__ranked_list_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexists _; iexact HS0
    isplitl [HS1]; · iexists _; iexact HS1
    isplitl [HS2]; · iexists _; iexact HS2
    iexists _; iexact HS3

end Cert.KernelIdeal.Gen

end
-- ==== Proof.FrameRunBI.lean ====
/-
  The kernel body run symbolically in the middle case (column blocks 1 to 6): each running sum, found at what the
  point before left, is overwritten by itself plus this block's partial sum; the output's buffer is handed back
  untouched.
-/
import proofs.«144597_j3556232921179_1_alg».proof.Proof.FrameRunAI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__ranked_list_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0__ranked_list_kernel_eq_skeleton]; unfold cc0__ranked_list_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Gen

end
-- ==== Proof.FrameRunCI.lean ====
/-
  The kernel body run symbolically in the last case (column block 7): each running sum is overwritten by itself
  plus this block's partial sum, and the output block is stored whole: the quotient of the hinge sum by the shifted
  count plus the quotient of the weighted sum by the shifted weight sum.
-/
import proofs.«144597_j3556232921179_1_alg».proof.Proof.FrameRunBI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__ranked_list_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__ranked_list_kernel_eq_skeleton]; unfold cc0__ranked_list_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Gen

end
-- ==== Proof.FrameOutsI.lean ====
/-
  What the running sums and the output block hold after each grid point, by recursion on the point: at column
  block 0 the reset case, at column block 7 the finishing case over what the point before left, otherwise the
  middle case over what the point before left. The pieces of every case cover their buffers, so each buffer's
  contents after the body are those pieces read back.
-/
import proofs.«144597_j3556232921179_1_alg».proof.Proof.FrameRunCI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: after the two reshapes of the labels. -/
abbrev V0 (c : Dev nD) : Valuation τ sig (Elt F) := StableHlo.after (hostOps0 (F := F)) (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Every case's pieces cover their buffers -/

theorem cover0_A_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32)  (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3 ).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 ).2.1 S512x1.size (by sl_kernel_rfl) y

theorem cover0_A_2 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32)  (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3 ).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 ).2.2.1 S512x1.size (by sl_kernel_rfl) y

theorem cover0_A_3 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32)  (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3 ).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 ).2.2.2.1 S512x1.size (by sl_kernel_rfl) y

theorem cover0_A_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32)  (y : S512x1.Idx) :
    ∃ pc ∈ (kernelRun0_A c i arg2 harg2 arg3 harg3 arg4 harg4 arg5 harg5 arg6 harg6 arg7 harg7 arg8 harg8 arg9 harg9 arg10 harg10 hc0 hc1 x0 x1 x2 x3 ).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 ).2.2.2.2.1 S512x1.size (by sl_kernel_rfl) y

theorem cover0_B_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.1 S512x1.size (by sl_kernel_rfl) y

theorem cover0_B_2 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.1 S512x1.size (by sl_kernel_rfl) y

theorem cover0_B_3 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1 S512x1.size (by sl_kernel_rfl) y

theorem cover0_B_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.2.1 S512x1.size (by sl_kernel_rfl) y

theorem cover0_C_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).1 S512x1.size (by sl_kernel_rfl) y

theorem cover0_C_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.1 S512x1.size (by sl_kernel_rfl) y

theorem cover0_C_2 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.1 S512x1.size (by sl_kernel_rfl) y

theorem cover0_C_3 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1 S512x1.size (by sl_kernel_rfl) y

theorem cover0_C_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1 S512x1.size (by sl_kernel_rfl) y

/-! ## What one point leaves, per case -/

/-- The output block's buffer and the four running sums. -/
abbrev Outs (F : FTy → Type) [FloatOps F] : Type := Vec F S512x1 .f32 × Vec F S512x1 .f32 × Vec F S512x1 .f32 × Vec F S512x1 .f32 × Vec F S512x1 .f32

def outA (c : Dev nD) (t : Fin cfg0.N) (h0 : cond0_0 (grid0.coords t)) (h1 : ¬cond0_1 (grid0.coords t)) : Outs F :=
  (VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)).1),
    VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)).2.1),
    VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)).2.2.1),
    VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)).2.2.2.1),
    VS0_3.read (Elt F) (VS0_3.writes (Elt F) VS0_3.junk (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)).2.2.2.2.1))

def outB (c : Dev nD) (t : Fin cfg0.N) (h0 : ¬cond0_0 (grid0.coords t)) (h1 : ¬cond0_1 (grid0.coords t)) (p : Outs F) : Outs F :=
  (VO0_4.read (Elt F) (VO0_4.writes (Elt F) VO0_4.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).1),
    VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.1),
    VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.1),
    VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.2.1),
    VS0_3.read (Elt F) (VS0_3.writes (Elt F) VS0_3.junk (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.2.2.1))

def outC (c : Dev nD) (t : Fin cfg0.N) (h0 : ¬cond0_0 (grid0.coords t)) (h1 : cond0_1 (grid0.coords t)) (p : Outs F) : Outs F :=
  (VO0_4.read (Elt F) (VO0_4.writes (Elt F) VO0_4.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).1),
    VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.1),
    VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.1),
    VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.2.1),
    VS0_3.read (Elt F) (VS0_3.writes (Elt F) VS0_3.junk (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2).2.2.2.2.1))

/-! ## What the buffers hold after each point -/

def outsAt0 (c : Dev nD) : (n : ℕ) → n < cfg0.N → Outs F
  | 0, hn => outA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      outA m c ⟨n + 1, hn⟩ ((hcond0_0 ⟨n + 1, hn⟩).mpr h0) (fun h => (fun h => by (try dsimp only at h); omega) ((hcond0_1 ⟨n + 1, hn⟩).mp h))
    else
      if h1 : (n + 1) % 8 = 7 then
        outC m c ⟨n + 1, hn⟩ (fun h => h0 ((hcond0_0 ⟨n + 1, hn⟩).mp h)) ((hcond0_1 ⟨n + 1, hn⟩).mpr h1) (outsAt0 c n (Nat.lt_of_succ_lt hn))
      else
        outB m c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 8 = 0) (h1 : ¬t.val % 8 = 7) :
    outsAt0 m c t.val t.isLt = outA m c t ((hcond0_0 t).mpr h0) (fun h => h1 ((hcond0_1 t).mp h)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = outB m c t (fun h => h0 ((hcond0_0 t).mp h)) (fun h => h1 ((hcond0_1 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = outC m c t (fun h => h0 ((hcond0_0 t).mp h)) ((hcond0_1 t).mpr h1) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point the scoped rest at anything; afterwards the four running sums at what the point before
    left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- The arrays as the region finds them; after the body each input's buffer at its block and the output's at the
    recursion's first component; the two windows on the feature matrix hold it at complementary shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Gen

end
-- ==== Proof.FrameBodyI.lean ====
/-
  The body obligation at a generic grid point: the inputs' buffers hold their blocks, the closed forms of the two
  conditions say which case the point is in, the invariant hands the body the four running sums (at anything at
  the first point, else at what the point before left) and takes them back at this point's contents.
-/
import proofs.«144597_j3556232921179_1_alg».proof.Proof.FrameOutsI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold outA; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (cover0_A_1 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_A_2 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_A_3 c _ _ _ _ _ _ _ _ _ _ _ _ _ _ _ _ _ _ _ _ _ _ _ _ _)
          unfold owns; iexists _; isplitr
          swap; · iexact HS3
          ipureintro; exact View.read_writes_of_cover _ _ _ _ _ (cover0_A_4 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (cover0_A_1 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_A_2 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_A_3 c _ _ _ _ _ _ _ _ _ _ _ _ _ _ _ _ _ _ _ _ _ _ _ _ _)
          unfold owns; iexists _; isplitr
          swap; · iexact HS3
          ipureintro; exact View.read_writes_of_cover _ _ _ _ _ (cover0_A_4 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold outC; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (cover0_C_1 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_C_2 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_C_3 c _ _ _ _ _ _ _ _ _ _ _ _ _ _ _ _ _ _ _ _ _ _ _ _ _ _ _ _ _)
          unfold owns; iexists _; isplitr
          swap; · iexact HS3
          ipureintro; exact View.read_writes_of_cover _ _ _ _ _ (cover0_C_4 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_0 c _ _ _ _ _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold outB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _).2.2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (cover0_B_1 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_B_2 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_B_3 c _ _ _ _ _ _ _ _ _ _ _ _ _ _ _ _ _ _ _ _ _ _ _ _ _ _ _ _ _)
          unfold owns; iexists _; isplitr
          swap; · iexact HS3
          ipureintro; exact View.read_writes_of_cover _ _ _ _ _ (cover0_B_4 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the sums' named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.KernelIdeal.Gen

end
-- ==== Proof.FrameLaunchI.lean ====
/-
  The launch: @main as three segments — the two reshapes of the labels, the kernel region, the sum and the
  division after it. The region is entered from every unscoped buffer held whole; the feature matrix, which two
  input windows read, is split into two complementary shares for them and put together again at the exit; the
  output array comes back at what the write-backs left, every other buffer as it was.
-/
import proofs.«144597_j3556232921179_1_alg».proof.Proof.FrameBodyI
import Idealize.ShloMosaic.Lib.Pipeline.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev Lr : GSem nD τ sig → Finset Unit := fun _ => ∅
abbrev lvr : GSem nD τ sig → Unit → ℕ := fun _ _ => 0
abbrev adm : (p : Fin 1) → (pcfgs (F := F) p).Adm := fun p => (cfgs p).toPCfg_adm

/-- Core `c`'s buffers at launch, -/
abbrev Vl (c : Dev nD) : Valuation τ sig (Elt F) := fun b => m (c, b)
/-- after the region (the output array at what the write-backs left, the rest as the region found it), -/
def W2 (c : Dev nD) : Valuation τ sig (Elt F) :=
  Function.update (V0 m c) (Proc.devRef .tc main_v2) ((dats m 0 c).arrAt 4 cfg0.N)
/-- and at the end. -/
abbrev W3 (c : Dev nD) : Valuation τ sig (Elt F) := StableHlo.after (hostOps1 (F := F)) (W2 m c)

/-- One unscoped buffer whole at a valuation. -/
abbrev pt (c : Dev nD) (W : Valuation τ sig (Elt F)) (b : Ref sig .tc) : sProp 𝕄 :=
  ((c : Thread nD τ).loc b) ↦{fullShare} W (Proc.devRef .tc b)

/-- Every unscoped buffer held at a valuation, one by one: the four arrays the windows read or write, then the rest. -/
theorem held_chain (c : Dev nD) (W : Valuation τ sig (Elt F)) :
    (StableHlo.held (c : Thread nD τ) (Pipeline.ucRefs τ sig) W : sProp 𝕄)
      = iprop((pt c W main_arg0 ∗ pt c W main_v0 ∗ pt c W main_v1 ∗ pt c W main_v2)
          ∗ pt c W main_arg1 ∗ pt c W main_cst ∗ pt c W main_v3 ∗ pt c W main_cst_0 ∗ pt c W main_v4) := by
  rw [← Pipeline.unscopedBufs_held c W, Pipeline.unscopedBufs_split₀ cfgs (0 : Fin 1) winFacts₀0.arr_unscoped c, unscopedRest0_eq]
  unfold Pipeline.arrBufs
  rw [BI.bigSep_eq_bigSepL_of_eq [main_arg0, main_v0, main_v1, main_v2] (by decide) (by decide)]
  rfl

/-- The windows' arrays at contents `Fv`, one by one: the feature matrix at two complementary shares. -/
theorem arrays_chain (c : Dev nD) (Fv : (w : Fin cfg0.W) → Buf (Elt F) ((cfg0.win w).arr.view.loc (c : Thread nD τ))) :
    ((dats m 0 c).arrays Fv : sProp 𝕄)
      = iprop((((c : Thread nD τ).loc main_arg0) ↦{fullShare.left} Fv 0) ∗ (((c : Thread nD τ).loc main_arg0) ↦{fullShare.right} Fv 1)
          ∗ (((c : Thread nD τ).loc main_v0) ↦{fullShare} Fv 2) ∗ (((c : Thread nD τ).loc main_v1) ↦{fullShare} Fv 3)
          ∗ (((c : Thread nD τ).loc main_v2) ↦{fullShare} Fv 4)) := by
  unfold Pipeline.Dat.arrays
  rw [bigSep_W0]
  rw [(arr_whole0 0).set_eq_univ, (arr_whole0 2).set_eq_univ, (arr_whole0 3).set_eq_univ, (arr_whole0 4).set_eq_univ]
  rfl

/-- What rides beside the buffers: the generator register and the core's (empty) debts. -/
abbrev Rr (c : Dev nD) : sProp 𝕄 := iprop((∃ r, prngReg c r) ∗ ∃ W, owes (c : Thread nD τ) (0 : CellTallies nD τ sig Unit) W)

def seg0 : Pipeline.HostSeg (Name := ℕ) (U := UR sig nD τ) (pcfgs (F := F)) defs₀ 𝒱₀ Lr lvr :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vl m) Rr

def seg1 : Pipeline.HostSeg (Name := ℕ) (U := UR sig nD τ) (pcfgs (F := F)) defs₀ 𝒱₀ Lr lvr :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W2 m) Rr

theorem W2_v2 (c : Dev nD) : W2 m c (Proc.devRef .tc main_v2) = (dats m 0 c).arrAt 4 cfg0.N := by
  unfold W2; rw [Function.update_self]

theorem W2_ne (c : Dev nD) (b : Ref sig .tc) (hb : b ≠ main_v2) : W2 m c (Proc.devRef .tc b) = V0 m c (Proc.devRef .tc b) := by
  unfold W2; rw [Function.update_of_ne (fun e => hb (Proc.devRef_injective _ e))]

theorem pt_W2_ne (c : Dev nD) (b : Ref sig .tc) (hb : b ≠ main_v2) : (pt c (W2 m c) b : sProp 𝕄) = pt c (V0 m c) b := by
  unfold pt; rw [W2_ne m c b hb]

theorem pt_W2_v2 (c : Dev nD) : (pt c (W2 m c) main_v2 : sProp 𝕄) = (((c : Thread nD τ).loc main_v2) ↦{fullShare} (dats m 0 c).arrAt 4 cfg0.N) := by
  unfold pt; rw [W2_v2]

theorem A0_eq (c : Dev nD) : (dats m 0 c).A 0 = V0 m c (Proc.devRef .tc main_arg0) := rfl
theorem A1_eq (c : Dev nD) : (dats m 0 c).A 1 = V0 m c (Proc.devRef .tc main_arg0) := rfl
theorem A2_eq (c : Dev nD) : (dats m 0 c).A 2 = V0 m c (Proc.devRef .tc main_v0) := rfl
theorem A3_eq (c : Dev nD) : (dats m 0 c).A 3 = V0 m c (Proc.devRef .tc main_v1) := rfl

set_option backward.isDefEq.respectTransparency.types false in
def reg0 : Pipeline.RegionSeg (pcfgs (F := F)) adm (dats m) () defs₀ 𝒱₀ Lr lvr 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lr lvr 0 fun _ _ => rfl
  pre c := iprop(StableHlo.held (c : Thread nD τ) (Pipeline.ucRefs τ sig) (V0 m c) ∗ Rr c)
  post c := iprop(StableHlo.held (c : Thread nD τ) (Pipeline.ucRefs τ sig) (W2 m c) ∗ Rr c)
  X c := iprop(∃ r, prngReg c r)
  Y c := iprop(∃ r, prngReg c r)
  Z c := iprop(pt c (V0 m c) main_arg1 ∗ pt c (V0 m c) main_cst ∗ pt c (V0 m c) main_v3 ∗ pt c (V0 m c) main_cst_0 ∗ pt c (V0 m c) main_v4)
  hentry c := by
    rw [held_chain, arrays_chain]
    iintro ⟨⟨⟨⟨Ha0, Hv0, Hv1, Hv2⟩, Hrest⟩, ⟨Hp, HO⟩⟩, -, -⟩
    ihave Hs := (pointsTo_share (PosShare.mem_left_op_right fullShare)).1 $$ Ha0
    icases Hs with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (hin m c)
    unfold Pipeline.ΦA
    isplitl [Hr] <;> iassumption
  hout c := by
    rw [Pipeline.ownSems0_none]
    refine (hout m c).trans ?_
    unfold Pipeline.ΦA
    iintro ⟨Hr, Hp⟩
    isplitl [Hp]; · iexact Hp
    isplitr; · iempintro
    iexact Hr
  hexit c := by
    rw [held_chain, arrays_chain]
    rw [(dats m 0 c).arrAt_in 0 rfl, (dats m 0 c).arrAt_in 1 rfl, (dats m 0 c).arrAt_in 2 rfl, (dats m 0 c).arrAt_in 3 rfl]
    rw [A0_eq, A1_eq, A2_eq, A3_eq]
    rw [pt_W2_ne m c main_arg0 (by decide), pt_W2_ne m c main_v0 (by decide), pt_W2_ne m c main_v1 (by decide), pt_W2_v2,
      pt_W2_ne m c main_arg1 (by decide), pt_W2_ne m c main_cst (by decide), pt_W2_ne m c main_v3 (by decide), pt_W2_ne m c main_cst_0 (by decide), pt_W2_ne m c main_v4 (by decide)]
    iintro ⟨⟨Hl, Hr, Hv0, Hv1, Hv2⟩, HO, Hp, ⟨H1, Hc, H3, Hc0, H4⟩⟩
    ihave Ha0 := (pointsTo_share (PosShare.mem_left_op_right fullShare)).2 $$ [Hl Hr]
    · isplitl [Hl] <;> iassumption
    imodintro
    isplitr [Hp HO]
    · isplitl [Ha0 Hv0 Hv1 Hv2]
      · isplitl [Ha0]; · iexact Ha0
        isplitl [Hv0]; · iexact Hv0
        isplitl [Hv1]; · iexact Hv1
        iexact Hv2
      isplitl [H1]; · iexact H1
      isplitl [Hc]; · iexact Hc
      isplitl [H3]; · iexact H3
      isplitl [Hc0]; · iexact Hc0
      iexact H4
    · isplitl [Hp]; · iexact Hp
      unfold Pipeline.Dat.owesAt Pipeline.owesWithin
      icases HO with ⟨%W, -, HO⟩; iexists W; iexact HO

abbrev segs : List (Pipeline.Seg (pcfgs (F := F)) adm (dats m) () defs₀ 𝒱₀ Lr lvr) := [.host (seg0 m), .region (reg0 m), .host (seg1 m)]

/-- What every final state satisfies: each unscoped buffer holds the last valuation. -/
def QC : PUnit × MemSt nD τ sig (Elt F) → Prop := fun r =>
  ∀ c : Dev nD, ∀ b ∈ Pipeline.ucRefs τ sig, r.2.mem ((c : Thread nD τ).1, b) = W3 m c b

set_option backward.isDefEq.respectTransparency.types false in
theorem run_main : θ_run defs (onTc (τ := τ) (main (F := F))) ⟨m, fun _ => 0, ρ⟩ (QC m) :=
  Pipeline.θ_run_regions_kit (pcfgs (F := F)) adm (dats m) () cellOf_inj emb₁ defs₀ 𝒱₀ Lr lvr m ρ main (segs m)
    (fun c Q => by rw [main_segs adm (dats m) () 𝒱₀ Lr lvr (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ Rr c))
    (Tₙ := fun c => iprop(StableHlo.held (c : Thread nD τ) (Pipeline.ucRefs τ sig) (W3 m c) ∗ ∃ r, prngReg c r))
    (hch := ⟨fun _ => .rfl, fun _ => .rfl, fun _ => .rfl, fun c => by
      show (iprop(StableHlo.held (c : Thread nD τ) (Pipeline.ucRefs τ sig) (StableHlo.after (hostOps1 (F := F)) (W2 m c)) ∗ Rr c) : sProp 𝕄) ⊢ _
      iintro ⟨Hh, Hp, HO⟩
      isplitr [HO]
      · isplitl [Hh] <;> iassumption
      · iexact HO⟩)
    (hinit := by
      refine Pipeline.initEach Lr lvr fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W3 m c b)
    (hfin := fun c s' => by
      iintro ⟨⟨Hh, -⟩, HSI⟩
      unfold StableHlo.held
      ihave Hr := (pointsTo_read_all (Pipeline.ucRefs τ sig) (fun b => ((c : Thread nD τ).1, b)) (W3 m c) s') $$ [Hh HSI]
      · isplitl [Hh] <;> iassumption
      icases Hr with ⟨%h, HSI⟩
      imodintro
      isplitr; · ipureintro; exact h
      iexact HSI)
    (hQ := fun _ h => h)

end Cert.KernelIdeal.Gen

end
-- ==== Proof.FrameEndI.lean ====
/-
  The frame, read off the launch's post: the two argument arrays are written by no host operation and by no
  write-back, so every final state holds them as launched.
-/
import proofs.«144597_j3556232921179_1_alg».proof.Proof.FrameLaunchI

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two reshapes write only their own results. -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, Finset.mem_singleton] <;>
    exact StableHlo.devRef_ne_of_ne ‹_›

/-- The four operations after the region write only their own results. -/
theorem not_written1 (b : Ref sig .tc) (hb : b ≠ main_cst ∧ b ≠ main_v3 ∧ b ≠ main_cst_0 ∧ b ≠ main_v4) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.nullary_writes, StableHlo.binary_writes, Finset.mem_singleton] <;>
    exact StableHlo.devRef_ne_of_ne ‹_›

/-- A buffer nothing writes ends as launched. -/
theorem W3_kept (c : Dev nD) (b : Ref sig .tc) (h0 : b ≠ main_v0 ∧ b ≠ main_v1) (h1 : b ≠ main_cst ∧ b ≠ main_v3 ∧ b ≠ main_cst_0 ∧ b ≠ main_v4)
    (h2 : b ≠ main_v2) : W3 m c (Proc.devRef .tc b) = m ((c : Thread nD τ).loc b) :=
  (StableHlo.after_of_forall_not_mem (b := Proc.devRef .tc b) hostOps1 (W2 m c) (not_written1 b h1)).trans
    ((W2_ne m c b h2).trans (StableHlo.after_of_forall_not_mem (b := Proc.devRef .tc b) hostOps0 (Vl m c) (not_written0 b h0)))

theorem mem_uc (b : Ref sig .tc) (hb : b.isScoped = false) : Proc.devRef (τ := τ) .tc b ∈ Pipeline.ucRefs τ sig := by
  unfold Pipeline.ucRefs StableHlo.tcRefs
  simp only [Finset.mem_filter, Finset.mem_map, Finset.mem_univ, true_and]
  exact ⟨⟨b, rfl⟩, by simpa using hb⟩

/-- The frame: @main terminates from any memory and leaves both arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 rfl)).trans (W3_kept m c main_arg0 (by decide) (by decide) (by decide)),
       (h c _ (mem_uc main_arg1 rfl)).trans (W3_kept m c main_arg1 (by decide) (by decide) (by decide))⟩)
    (run_main m ρ)

end Cert.KernelIdeal.Gen

end
-- ==== Proof.Spec.lean ====
/-
  The ranked-list loss as one function of the feature matrix and the labels, over the extended reals.

  Rows are L2-normalised (the norm shifted by a small constant), the squared distance of rows r and c is
  |xn r|² + |xn c|² − 2⟨xn r, xn c⟩, clamped below and rooted. A pair (r, c) is positive when the labels agree and
  r ≠ c, negative when the labels differ. Row r's loss is the mean hinge of its positives plus the
  exponentially weighted mean of (α − d) over its negatives nearer than α; the result is the mean over rows.
  Float literals stay the words the programs print; sums are plain finite sums (no leading zero).
-/
import Idealize.ShloMosaic.PureOps.Ideal

noncomputable section

namespace Cert.Spec

open Idealize.ShloMosaic

/-- The literals, as printed words read at the extended reals. -/
def eps : EReal := Ideal.ofBits .f32 0x2B8CBCCC#32
def two : EReal := Ideal.ofBits .f32 0x40000000#32
def shift : EReal := Ideal.ofBits .f32 0xBF4CCCCD#32
def alpha : EReal := Ideal.ofBits .f32 0x3F99999A#32
def one : EReal := Ideal.ofBits .f32 0x3F800000#32
def tiny : EReal := Ideal.ofBits .f32 0x3727C5AC#32
def rows : EReal := Ideal.ofBits .f32 0x46000000#32

variable (x : Fin 8192 → Fin 256 → EReal) (lab : Fin 8192 → BitVec 32)

/-- The shifted Euclidean norm of row r. -/
def nrm (r : Fin 8192) : EReal := Ideal.sqrt (∑ k : Fin 256, x r k * x r k) + eps
/-- The normalised features. -/
def xn (r : Fin 8192) (k : Fin 256) : EReal := Ideal.div (x r k) (nrm x r)
/-- The squared length of a normalised row. -/
def sq (r : Fin 8192) : EReal := ∑ k : Fin 256, xn x r k * xn x r k
/-- The inner product of two normalised rows. -/
def dot (r c : Fin 8192) : EReal := ∑ k : Fin 256, xn x r k * xn x c k
/-- The clamped distance of rows r and c. -/
def dist (r c : Fin 8192) : EReal := Ideal.sqrt (max (sq x r + sq x c - two * dot x r c) eps)
/-- A positive pair: equal labels, distinct rows. -/
def pos (r c : Fin 8192) : Bool := decide (lab r = lab c) && decide (r ≠ c)
/-- A negative pair: distinct labels. -/
def neg (r c : Fin 8192) : Bool := !decide (lab r = lab c)
/-- The hinge term of a pair. -/
def ap (r c : Fin 8192) : EReal := if pos lab r c then max (dist x r c + shift) 0 else 0
/-- α − d. -/
def lm (r c : Fin 8192) : EReal := alpha - dist x r c
/-- The exponential weight of a pair. -/
def wt (r c : Fin 8192) : EReal :=
  if neg lab r c && decide (dist x r c < alpha) then Ideal.exp (one * lm x r c) else 0
def apSum (r : Fin 8192) : EReal := ∑ c : Fin 8192, ap x lab r c
def cnt (r : Fin 8192) : EReal := ∑ c : Fin 8192, (if pos lab r c then (1 : EReal) else 0)
def anSum (r : Fin 8192) : EReal := ∑ c : Fin 8192, lm x r c * wt x lab r c
def wSum (r : Fin 8192) : EReal := ∑ c : Fin 8192, wt x lab r c
/-- Row r's loss. -/
def loss (r : Fin 8192) : EReal :=
  Ideal.div (apSum x lab r) (cnt lab r + tiny) + Ideal.div (anSum x lab r) (wSum x lab r + tiny)
/-- The mean loss. -/
def result : EReal := Ideal.div (∑ r : Fin 8192, loss x lab r) rows

end Cert.Spec

end
-- ==== Proof.KTail.lean ====
/-
  The host operations after the kernel: the mean of the per-row losses.

  The [8192, 1] column of row losses is summed over both axes from the zero word, the extended real 0, and the
  total is divided by the number of rows. The index set of the column is the set of row numbers, the second
  coordinate being always 0.
-/
import proofs.«144597_j3556232921179_1_alg».proof.KernelIdeal
import proofs.«144597_j3556232921179_1_alg».proof.Proof.Spec
import Idealize.ShloMosaic.Lib.ValueIdx
import Idealize.ShloMosaic.PureOps.Ideal.Laws

noncomputable section

namespace Cert.KTail

open Cert.KernelIdeal Idealize.ShloMosaic Idealize.ShloMosaic.ValueIdx

/-- A sum over the index set of a column is the sum over its rows. -/
theorem sum_column (f : S8192x1.Idx → EReal) : ∑ j, f j = ∑ r : Fin 8192, f (ix2 r 0) := by
  rw [sum_idx2 f]
  exact Finset.sum_congr rfl fun r _ => Fin.sum_univ_one _

/-- The sum over both axes from zero, divided by the number of rows; for any proofs of the two shape facts. -/
theorem tail_eq (y : (⟨S8192x1, .f32⟩ : BufTy).Contents (Elt Ideal)) (h : S8192x1.ReducesTo [0, 1] S_)
    (hu : 0 < S_.numel) :
    Host.divf (F := Ideal) (Host.reduceAdd (F := Ideal) y (constant (F := Ideal) S_ .f32 0x00000000#32) h hu)
        (constant (F := Ideal) S_ .f32 0x46000000#32)
      = fun _ => Ideal.div (∑ r : Fin 8192, y (ix2 r 0)) Cert.Spec.rows := by
  funext i
  show FloatOps.hostDivf (Host.reduceAdd (F := Ideal) y (constant (F := Ideal) S_ .f32 0x00000000#32) h hu i)
      (Ideal.ofBits .f32 0x46000000#32) = _
  simp only [Host.reduceAdd, Ideal.hostReduceAdd_def]
  rw [Ideal.hostReduceAdd_total h (fun b => b.elim0) y _ i, constant_apply, Ideal.ofBits_zero_f32, zero_add, sum_column]
  rfl

/-- The same at the shape facts the printed program cites. -/
theorem tail_eq_facts [Cert.KernelIdeal.Facts] (y : (⟨S8192x1, .f32⟩ : BufTy).Contents (Elt Ideal)) :
    Host.divf (F := Ideal)
        (Host.reduceAdd (F := Ideal) y (constant (F := Ideal) S_ .f32 0x00000000#32)
          Cert.KernelIdeal.Facts₀.reducesTo_S8192x1_S_d0_1 Cert.KernelIdeal.Facts₀.h_S_)
        (constant (F := Ideal) S_ .f32 0x46000000#32)
      = fun _ => Ideal.div (∑ r : Fin 8192, y (ix2 r 0)) Cert.Spec.rows :=
  tail_eq y _ _

end Cert.KTail

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.BlockMath.lean ====
/-
  The rows of the feature matrix seen by one block of the pairwise tiling, and the regrouping of a sum over all
  8192 rows into a sum over blocks of the sums inside each block.

  The 8192 rows are cut into 16 blocks of 512 (the rows a tile ranks) and, independently, into 8 blocks of 1024 (the
  rows a tile is compared with). Row `p` of the `i`-th block of 512 is row `512·i + p`; row `q` of the `j`-th block of
  1024 is row `1024·j + q`. Every row lies in exactly one block of each cut, so a sum over all rows is the sum over
  blocks of the sums over each block's rows: this holds in any commutative additive monoid, in particular over the
  extended reals, with no finiteness needed.
-/
import proofs.«144597_j3556232921179_1_alg».proof.Proof.Spec
import proofs.«144597_j3556232921179_1_alg».proof.Proof.LibTiles

open scoped BigOperators

namespace Cert.BlockMath

/-- Row `p` of the `i`-th block of 512 rows. -/
def R (i : Fin 16) (p : Fin 512) : Fin 8192 := ⟨i.val * 512 + p.val, by omega⟩

/-- Row `q` of the `j`-th block of 1024 rows. -/
def C (j : Fin 8) (q : Fin 1024) : Fin 8192 := ⟨j.val * 1024 + q.val, by omega⟩

@[simp] theorem R_val (i : Fin 16) (p : Fin 512) : (R i p).val = i.val * 512 + p.val := rfl
@[simp] theorem C_val (j : Fin 8) (q : Fin 1024) : (C j q).val = j.val * 1024 + q.val := rfl

/-- Two positions name the same row exactly when their numbers agree. -/
theorem R_eq_C_iff (i : Fin 16) (p : Fin 512) (j : Fin 8) (q : Fin 1024) :
    R i p = C j q ↔ i.val * 512 + p.val = j.val * 1024 + q.val := by
  rw [Fin.ext_iff]; rfl

variable {M : Type*} [AddCommMonoid M]

/-- A sum over all rows, by blocks of 1024. -/
theorem sum_cols (f : Fin 8192 → M) : ∑ c : Fin 8192, f c = ∑ j : Fin 8, ∑ q : Fin 1024, f (C j q) := by
  have h := Cert.LibTiles.sum_tiles_mul 8 1024 (M := M) f (fun j p => by omega)
  refine h.symm.trans ?_
  refine Finset.sum_congr rfl fun j _ => Finset.sum_congr rfl fun q _ => congrArg f (Fin.ext ?_)
  show 1024 * j.val + q.val = j.val * 1024 + q.val
  omega

/-- A sum over all rows, by blocks of 512. -/
theorem sum_rows (g : Fin 8192 → M) : ∑ r : Fin 8192, g r = ∑ i : Fin 16, ∑ p : Fin 512, g (R i p) := by
  have h := Cert.LibTiles.sum_tiles_mul 16 512 (M := M) g (fun j p => by omega)
  refine h.symm.trans ?_
  refine Finset.sum_congr rfl fun i _ => Finset.sum_congr rfl fun p _ => congrArg g (Fin.ext ?_)
  show 512 * i.val + p.val = i.val * 512 + p.val
  omega

end Cert.BlockMath
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.KValue.lean ====
/-
  The blocks the pairwise kernel's windows hold at a grid point, read at coordinates off the arrays at launch: the
  grid runs row block by row block (16 of 512 rows), eight column blocks (of 1024 rows) each; the labels reach the
  kernel reshaped to a column and to a row, which read the label vector at the row's number.
-/
import proofs.«144597_j3556232921179_1_alg».proof.Proof.FrameOutsI
import proofs.«144597_j3556232921179_1_alg».proof.Proof.BlockMath
import proofs.«144597_j3556232921179_1_alg».proof.Proof.LibColumns
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen Cert.BlockMath

variable (m : (ℓ : Loc nD τ sig) → Buf (Elt Ideal) ℓ) (c : Dev nD)

/-- The feature matrix at launch, row by row. -/
abbrev X : Fin 8192 → Fin 256 → EReal := fun r k => m ((c : Thread nD τ).loc main_arg0) (ix2 r k)
/-- The labels at launch. -/
abbrev Lb : Fin 8192 → BitVec 32 := fun r => m ((c : Thread nD τ).loc main_arg1) (ix1 r)

/-- The row block of grid point `t`: the points run row block by row block, eight column blocks each. -/
def gi (t : Fin cfg0.N) : Fin 16 := ⟨t.val / 8, by have := t.isLt; have h : cfg0.N = 128 := N_0; omega⟩
/-- The column block of grid point `t`. -/
def gj (t : Fin cfg0.N) : Fin 8 := ⟨t.val % 8, by omega⟩

@[simp] theorem gi_val (t : Fin cfg0.N) : (gi t).val = t.val / 8 := rfl
@[simp] theorem gj_val (t : Fin cfg0.N) : (gj t).val = t.val % 8 := rfl

/-! ## The arrays as the region finds them -/

/-- The feature matrix is untouched by the two reshapes of the labels. -/
theorem V_arg0 : (V m c main_arg0 : S8192x256.Idx → EReal) = m ((c : Thread nD τ).loc main_arg0) := by
  dsimp only [V, V0, hostOps0]
  after_results

/-- The labels as a column. -/
theorem V_v0 : (V m c main_v0 : S8192x1.Idx → BitVec 32)
    = shapeCast S8192x1 (m ((c : Thread nD τ).loc main_arg1)) shapeCasts_S8192_S8192x1 := by
  dsimp only [V, V0, hostOps0]
  after_results
  rfl

/-- The labels as a row. -/
theorem V_v1 : (V m c main_v1 : S1x8192.Idx → BitVec 32)
    = shapeCast S1x8192 (m ((c : Thread nD τ).loc main_arg1)) shapeCasts_S8192_S1x8192 := by
  dsimp only [V, V0, hostOps0]
  after_results
  rfl

/-! ## The printed index maps, decided once over the grid -/

/-- Point `t` is row block `t / 8`, column block `t % 8`; the windows on the rows being ranked (features, labels, the
    output) sit at the row block, those on the rows compared with at the column block. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ ((grid0.coords t) 0).val = t.val / 8 ∧ ((grid0.coords t) 1).val = t.val % 8 :=
  (by decide +kernel : ∀ t : Fin grid0.N, _)

/-- The grid coordinates as the body's 32-bit words. -/
theorem coord0_word (t : Fin cfg0.N) : BitVec.ofNat 32 ((grid0.coords t) 0).val = BitVec.ofNat 32 (gi t).val :=
  congrArg (BitVec.ofNat 32) (idx_facts t).2.2.2.2.2.2.2.2.2.2.1
theorem coord1_word (t : Fin cfg0.N) : BitVec.ofNat 32 ((grid0.coords t) 1).val = BitVec.ofNat 32 (gj t).val :=
  congrArg (BitVec.ofNat 32) (idx_facts t).2.2.2.2.2.2.2.2.2.2.2

/-! ## The windows' blocks, read at coordinates -/

/-- The block of rows being ranked at point `t`: row `p` of it is row `512·(t/8) + p` of the features. -/
theorem iblk0_apply (t : Fin cfg0.N) (p : Fin 512) (k : Fin 256) :
    (iblk m c 0 t : Vec Ideal S512x256 .f32) (ix2 p k) = X m c (R (gi t) p) k := by
  unfold iblk
  rw [View.read_apply]
  show V m c main_arg0 (((cfg0.win 0).blk t).view.emb (ix2 p k)) = m ((c : Thread nD τ).loc main_arg0) (ix2 (R (gi t) p) k)
  refine (congrFun (V_arg0 m c) _).trans (congrArg (m ((c : Thread nD τ).loc main_arg0)) ?_)
  obtain ⟨e0, e1, -⟩ := idx_facts t
  funext a
  apply Fin.ext
  match a with
  | ⟨0, _⟩ => show win0_0.index t (0 : Fin 2) * 512 + 1 * p.val = t.val / 8 * 512 + p.val; rw [e0]; omega
  | ⟨1, _⟩ => show win0_0.index t (1 : Fin 2) * 256 + 1 * k.val = k.val; rw [e1]; omega

/-- The block of rows compared with at point `t`: row `q` of it is row `1024·(t%8) + q` of the features. -/
theorem iblk1_apply (t : Fin cfg0.N) (q : Fin 1024) (k : Fin 256) :
    (iblk m c 1 t : Vec Ideal S1024x256 .f32) (ix2 q k) = X m c (C (gj t) q) k := by
  unfold iblk
  rw [View.read_apply]
  show V m c main_arg0 (((cfg0.win 1).blk t).view.emb (ix2 q k)) = m ((c : Thread nD τ).loc main_arg0) (ix2 (C (gj t) q) k)
  refine (congrFun (V_arg0 m c) _).trans (congrArg (m ((c : Thread nD τ).loc main_arg0)) ?_)
  obtain ⟨-, -, e0, e1, -⟩ := idx_facts t
  funext a
  apply Fin.ext
  match a with
  | ⟨0, _⟩ => show win0_1.index t (0 : Fin 2) * 1024 + 1 * q.val = t.val % 8 * 1024 + q.val; rw [e0]; omega
  | ⟨1, _⟩ => show win0_1.index t (1 : Fin 2) * 256 + 1 * k.val = k.val; rw [e1]; omega

/-- The labels of the rows being ranked, as a column block. -/
theorem iblk2_apply (t : Fin cfg0.N) (p : Fin 512) :
    (iblk m c 2 t : Vec Ideal S512x1 .i32) (ix2 p 0) = Lb m c (R (gi t) p) := by
  unfold iblk
  rw [View.read_apply]
  show V m c main_v0 (((cfg0.win 2).blk t).view.emb (ix2 p (0 : Fin 1))) = m ((c : Thread nD τ).loc main_arg1) (ix1 (R (gi t) p))
  have e : ((cfg0.win 2).blk t).view.emb (ix2 p (0 : Fin 1)) = (ix2 (R (gi t) p) (0 : Fin 1) : S8192x1.Idx) := by
    obtain ⟨-, -, -, -, e0, e1, -⟩ := idx_facts t
    funext a
    apply Fin.ext
    match a with
    | ⟨0, _⟩ => show win0_2.index t (0 : Fin 2) * 512 + 1 * p.val = t.val / 8 * 512 + p.val; rw [e0]; omega
    | ⟨1, _⟩ => show win0_2.index t (1 : Fin 2) * 1 + 1 * 0 = 0; rw [e1]
  refine (congrFun (V_v0 m c) _).trans ?_
  rw [e]
  exact Cert.LibColumns.shapeCast_a_a1_apply _ shapeCasts_S8192_S8192x1 (R (gi t) p) 0

/-- The labels of the rows compared with, as a row block. -/
theorem iblk3_apply (t : Fin cfg0.N) (q : Fin 1024) :
    (iblk m c 3 t : Vec Ideal S1x1024 .i32) (ix2 0 q) = Lb m c (C (gj t) q) := by
  unfold iblk
  rw [View.read_apply]
  show V m c main_v1 (((cfg0.win 3).blk t).view.emb (ix2 (0 : Fin 1) q)) = m ((c : Thread nD τ).loc main_arg1) (ix1 (C (gj t) q))
  have e : ((cfg0.win 3).blk t).view.emb (ix2 (0 : Fin 1) q) = (ix2 (0 : Fin 1) (C (gj t) q) : S1x8192.Idx) := by
    obtain ⟨-, -, -, -, -, -, e0, e1, -⟩ := idx_facts t
    funext a
    apply Fin.ext
    match a with
    | ⟨0, _⟩ => show win0_3.index t (0 : Fin 2) * 1 + 1 * 0 = 0; rw [e0]
    | ⟨1, _⟩ => show win0_3.index t (1 : Fin 2) * 1024 + 1 * q.val = t.val % 8 * 1024 + q.val; rw [e1]; omega
  refine (congrFun (V_v1 m c) _).trans ?_
  rw [e]
  exact shapeCast_a_1a_apply _ shapeCasts_S8192_S1x8192 0 (C (gj t) q)

end Cert.KernelIdeal.KValue

end
-- ==== Proof.KValueArr.lean ====
/-
  From blocks to the output array: the column of row losses is written back block by block, one block of 512 rows at
  the last column block of each row block; the sixteen blocks tile the 8192 rows, so an array-level description that
  agrees with what each of those points leaves is what the array holds after the run.
-/
import proofs.«144597_j3556232921179_1_alg».proof.Proof.FrameOutsI
import proofs.«144597_j3556232921179_1_alg».proof.Proof.BlockMath
import proofs.«144597_j3556232921179_1_alg».proof.Proof.KValue
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen Cert.BlockMath

variable (m : (ℓ : Loc nD τ sig) → Buf (Elt Ideal) ℓ) (c : Dev nD)

/-- An index of the array is in point `t`'s output block iff each coordinate is in the block's range on its axis. -/
theorem mem_blk4 (t : Fin cfg0.N) (i : S8192x1.Idx) :
    i ∈ ((cfg0.win 4).blk t).view.set
      ↔ ∀ a : Fin 2, win0_4.index t a * S512x1.size a ≤ (i a).val ∧ (i a).val < win0_4.index t a * S512x1.size a + S512x1.size a := by
  show i ∈ ((View.whole main_v2).slice (win0_4.rect t)).set ↔ _
  rw [View.set_slice_whole, Rect.mem_set_unit]
  exact Iff.rfl

section
variable (G : Buf (Elt Ideal) ((c : Thread nD τ).loc main_v2))
  (hG : ∀ t : Fin cfg0.N, t.val % 8 = 7 → ∀ p : Fin 512,
    (outsAt0 m c t.val t.isLt).1 (ix2 p 0) = G (ix2 (R (gi t) p) 0))
include hG

/-- What a point of the last column block writes back is its row block of `G`. -/
theorem flushed4_eq (t : Fin cfg0.N) (hf : (cfg0.win 4).flush t = true) :
    (dats m 0 c).flushed 4 t = ((cfg0.win 4).blk t).view.read (Elt Ideal) G := by
  have h7 : t.val % 8 = 7 := (flush0_4 t).mp hf
  show (cfg0.win 4).cut (grid0.coords t) ((dats m 0 c).after 4 t) = _
  rw [after0_4]
  funext y
  have hy0 : (y 0).val < 512 := (y 0).isLt
  have hy1 : (y 1).val < 1 := (y 1).isLt
  obtain ⟨-, -, -, -, -, -, -, -, e0, e1, -⟩ := idx_facts t
  show (outsAt0 m c t.val t.isLt).1 (win0_4.xinj (grid0.coords t) y) = G (((cfg0.win 4).blk t).view.emb y)
  have hx : win0_4.xinj (grid0.coords t) y = (ix2 (⟨(y 0).val, hy0⟩ : Fin 512) (0 : Fin 1) : S512x1.Idx) := by
    funext a
    apply Fin.ext
    match a with
    | ⟨0, _⟩ => rfl
    | ⟨1, _⟩ => show (y 1).val = 0; omega
  have he : ((cfg0.win 4).blk t).view.emb y = (ix2 (R (gi t) ⟨(y 0).val, hy0⟩) (0 : Fin 1) : S8192x1.Idx) := by
    funext a
    apply Fin.ext
    match a with
    | ⟨0, _⟩ => show win0_4.index t (0 : Fin 2) * 512 + 1 * (y 0).val = t.val / 8 * 512 + (y 0).val; rw [e0]; omega
    | ⟨1, _⟩ => show win0_4.index t (1 : Fin 2) * 1 + 1 * (y 1).val = 0; rw [e1]; omega
  rw [hx, he]
  exact hG t h7 ⟨(y 0).val, hy0⟩

/-- The output array after the run: every row lies in the block of the last point of its row block, so the array
    is `G`. -/
theorem arr_of_blocks : (dats m 0 c).arrAt 4 cfg0.N = G :=
  (dats m 0 c).arrAt_eq_of_cover 4 G (flushed4_eq m c G hG) fun i => by
    have hN : cfg0.N = 128 := N_0
    have hi0 : (i 0).val < 8192 := (i 0).isLt
    have hi1 : (i 1).val < 1 := (i 1).isLt
    have ht : 8 * ((i 0).val / 512) + 7 < cfg0.N := by omega
    refine ⟨⟨8 * ((i 0).val / 512) + 7, ht⟩, (flush0_4 _).mpr (by show (8 * ((i 0).val / 512) + 7) % 8 = 7; omega), ?_⟩
    obtain ⟨-, -, -, -, -, -, -, -, e0, e1, -⟩ := idx_facts (⟨8 * ((i 0).val / 512) + 7, ht⟩ : Fin cfg0.N)
    rw [mem_blk4]
    intro a
    match a with
    | ⟨0, _⟩ =>
      show win0_4.index ⟨8 * ((i 0).val / 512) + 7, ht⟩ (0 : Fin 2) * 512 ≤ (i 0).val
        ∧ (i 0).val < win0_4.index ⟨8 * ((i 0).val / 512) + 7, ht⟩ (0 : Fin 2) * 512 + 512
      rw [e0]
      show (8 * ((i 0).val / 512) + 7) / 8 * 512 ≤ (i 0).val ∧ (i 0).val < (8 * ((i 0).val / 512) + 7) / 8 * 512 + 512
      omega
    | ⟨1, _⟩ =>
      show win0_4.index ⟨8 * ((i 0).val / 512) + 7, ht⟩ (1 : Fin 2) * 1 ≤ (i 1).val
        ∧ (i 1).val < win0_4.index ⟨8 * ((i 0).val / 512) + 7, ht⟩ (1 : Fin 2) * 1 + 1
      rw [e1]
      omega

end

end Cert.KernelIdeal.KValue

end
-- ==== Proof.FramePiecesI.lean ====
/-
  What each control case of the kernel body leaves in the four running sums and in the output block, as values.

  Every buffer's contents after the body are its found pieces read back over anything; the pieces are whole-buffer
  stores, so the last one is the contents, and a load that follows a whole-buffer store reads that store's payload.
  The loads of the input blocks read the blocks themselves.
-/
import proofs.«144597_j3556232921179_1_alg».proof.Proof.FrameOutsI
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Both offsets of a whole-buffer access are zero. -/
theorem zoff : (![0, 0] : Fin 2 → Nat) = fun _ => 0 := funext fun a => by fin_cases a <;> rfl

/-! ## The reset case: each running sum is zero, then zero plus this block's partial sum

The run finds two pieces per running sum, the later first: the store of the updated sum, whose payload read the
buffer back after the store of zero, and that store of zero. The later piece covers the buffer, and the read-back
of one covering store is its payload. -/

theorem pieceA_1 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x256 .f32) (x1 : Vec F S1024x256 .f32) (x2 : Vec F S512x1 .i32) (x3 : Vec F S1x1024 .i32) :
    v.read (Elt F) (v.writes (Elt F) v.junk (kernelRun0_A c i arg2 harg2 arg3 harg3 arg4 harg4 arg5 harg5 arg6 harg6 arg7 harg7 arg8 harg8 arg9 harg9 arg10 harg10 hc0 hc1 x0 x1 x2 x3).2.1)
      = k0_pay15 (BitVec.ofNat 32 (i 0).val) (BitVec.ofNat 32 (i 1).val) (k0_pay11 x0 x1) x2 x3 k0_pay7 := by
  rw [View.read_writes_junk_eq_canon]
  unfold kernelRun0_A
  dsimp only
  sl_unfold_words
  rw [View.canon_cons_unit_zero (S := S512x1) zoff, View.readCov_unit_zero (S := S512x1) _ zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

theorem pieceA_2 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x256 .f32) (x1 : Vec F S1024x256 .f32) (x2 : Vec F S512x1 .i32) (x3 : Vec F S1x1024 .i32) :
    v.read (Elt F) (v.writes (Elt F) v.junk (kernelRun0_A c i arg2 harg2 arg3 harg3 arg4 harg4 arg5 harg5 arg6 harg6 arg7 harg7 arg8 harg8 arg9 harg9 arg10 harg10 hc0 hc1 x0 x1 x2 x3).2.2.1)
      = k0_pay1 (k0_pay16 (BitVec.ofNat 32 (i 0).val) (BitVec.ofNat 32 (i 1).val) x2 x3 k0_pay8) := by
  rw [View.read_writes_junk_eq_canon]
  unfold kernelRun0_A
  dsimp only
  sl_unfold_words
  rw [View.canon_cons_unit_zero (S := S512x1) zoff, View.readCov_unit_zero (S := S512x1) _ zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

theorem pieceA_3 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x256 .f32) (x1 : Vec F S1024x256 .f32) (x2 : Vec F S512x1 .i32) (x3 : Vec F S1x1024 .i32) :
    v.read (Elt F) (v.writes (Elt F) v.junk (kernelRun0_A c i arg2 harg2 arg3 harg3 arg4 harg4 arg5 harg5 arg6 harg6 arg7 harg7 arg8 harg8 arg9 harg9 arg10 harg10 hc0 hc1 x0 x1 x2 x3).2.2.2.1)
      = k0_pay4 (k0_pay11 x0 x1) (k0_pay14 x2 x3) k0_pay9 := by
  rw [View.read_writes_junk_eq_canon]
  unfold kernelRun0_A
  dsimp only
  sl_unfold_words
  rw [View.canon_cons_unit_zero (S := S512x1) zoff, View.readCov_unit_zero (S := S512x1) _ zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

theorem pieceA_4 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x256 .f32) (x1 : Vec F S1024x256 .f32) (x2 : Vec F S512x1 .i32) (x3 : Vec F S1x1024 .i32) :
    v.read (Elt F) (v.writes (Elt F) v.junk (kernelRun0_A c i arg2 harg2 arg3 harg3 arg4 harg4 arg5 harg5 arg6 harg6 arg7 harg7 arg8 harg8 arg9 harg9 arg10 harg10 hc0 hc1 x0 x1 x2 x3).2.2.2.2.1)
      = k0_pay5 (k0_pay11 x0 x1) (k0_pay14 x2 x3) k0_pay10 := by
  rw [View.read_writes_junk_eq_canon]
  unfold kernelRun0_A
  dsimp only
  sl_unfold_words
  rw [View.canon_cons_unit_zero (S := S512x1) zoff, View.readCov_unit_zero (S := S512x1) _ zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

/-! ## The middle case: each running sum is what the point before left plus this block's partial sum

One covering store per running sum; its payload read the whole buffers. -/

theorem pieceB_1 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x256 .f32) (x1 : Vec F S1024x256 .f32) (x2 : Vec F S512x1 .i32) (x3 : Vec F S1x1024 .i32) (xs0 xs1 xs2 xs3 : Vec F S512x1 .f32) :
    v.read (Elt F) (v.writes (Elt F) v.junk (kernelRun0_B c i arg2 harg2 arg3 harg3 arg4 harg4 arg5 harg5 arg6 harg6 arg7 harg7 arg8 harg8 arg9 harg9 arg10 harg10 hc0 hc1 x0 x1 x2 x3 xs0 xs1 xs2 xs3).2.1)
      = k0_pay15 (BitVec.ofNat 32 (i 0).val) (BitVec.ofNat 32 (i 1).val) (k0_pay11 x0 x1) x2 x3 xs0 := by
  rw [View.read_writes_junk_eq_canon]
  unfold kernelRun0_B
  dsimp only
  sl_unfold_words
  rw [View.canon_unit_zero (S := S512x1) zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

theorem pieceB_2 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x256 .f32) (x1 : Vec F S1024x256 .f32) (x2 : Vec F S512x1 .i32) (x3 : Vec F S1x1024 .i32) (xs0 xs1 xs2 xs3 : Vec F S512x1 .f32) :
    v.read (Elt F) (v.writes (Elt F) v.junk (kernelRun0_B c i arg2 harg2 arg3 harg3 arg4 harg4 arg5 harg5 arg6 harg6 arg7 harg7 arg8 harg8 arg9 harg9 arg10 harg10 hc0 hc1 x0 x1 x2 x3 xs0 xs1 xs2 xs3).2.2.1)
      = k0_pay1 (k0_pay16 (BitVec.ofNat 32 (i 0).val) (BitVec.ofNat 32 (i 1).val) x2 x3 xs1) := by
  rw [View.read_writes_junk_eq_canon]
  unfold kernelRun0_B
  dsimp only
  sl_unfold_words
  rw [View.canon_unit_zero (S := S512x1) zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

theorem pieceB_3 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x256 .f32) (x1 : Vec F S1024x256 .f32) (x2 : Vec F S512x1 .i32) (x3 : Vec F S1x1024 .i32) (xs0 xs1 xs2 xs3 : Vec F S512x1 .f32) :
    v.read (Elt F) (v.writes (Elt F) v.junk (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1)
      = k0_pay4 (k0_pay11 x0 x1) (k0_pay14 x2 x3) xs2 := by
  rw [View.read_writes_junk_eq_canon]
  unfold kernelRun0_B
  dsimp only
  sl_unfold_words
  rw [View.canon_unit_zero (S := S512x1) zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

theorem pieceB_4 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x256 .f32) (x1 : Vec F S1024x256 .f32) (x2 : Vec F S512x1 .i32) (x3 : Vec F S1x1024 .i32) (xs0 xs1 xs2 xs3 : Vec F S512x1 .f32) :
    v.read (Elt F) (v.writes (Elt F) v.junk (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.2.1)
      = k0_pay5 (k0_pay11 x0 x1) (k0_pay14 x2 x3) xs3 := by
  rw [View.read_writes_junk_eq_canon]
  unfold kernelRun0_B
  dsimp only
  sl_unfold_words
  rw [View.canon_unit_zero (S := S512x1) zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

/-! ## The finishing case: the running sums as in the middle case, and the output block from the four new sums

The output block's one covering store has a payload that read the four running sums back after their stores. -/

theorem pieceC_1 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x256 .f32) (x1 : Vec F S1024x256 .f32) (x2 : Vec F S512x1 .i32) (x3 : Vec F S1x1024 .i32) (xs0 xs1 xs2 xs3 : Vec F S512x1 .f32) :
    v.read (Elt F) (v.writes (Elt F) v.junk (kernelRun0_C c i arg2 harg2 arg3 harg3 arg4 harg4 arg5 harg5 arg6 harg6 arg7 harg7 arg8 harg8 arg9 harg9 arg10 harg10 hc0 hc1 x0 x1 x2 x3 xs0 xs1 xs2 xs3).2.1)
      = k0_pay15 (BitVec.ofNat 32 (i 0).val) (BitVec.ofNat 32 (i 1).val) (k0_pay11 x0 x1) x2 x3 xs0 := by
  rw [View.read_writes_junk_eq_canon]
  unfold kernelRun0_C
  dsimp only
  sl_unfold_words
  rw [View.canon_unit_zero (S := S512x1) zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

theorem pieceC_2 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x256 .f32) (x1 : Vec F S1024x256 .f32) (x2 : Vec F S512x1 .i32) (x3 : Vec F S1x1024 .i32) (xs0 xs1 xs2 xs3 : Vec F S512x1 .f32) :
    v.read (Elt F) (v.writes (Elt F) v.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.1)
      = k0_pay1 (k0_pay16 (BitVec.ofNat 32 (i 0).val) (BitVec.ofNat 32 (i 1).val) x2 x3 xs1) := by
  rw [View.read_writes_junk_eq_canon]
  unfold kernelRun0_C
  dsimp only
  sl_unfold_words
  rw [View.canon_unit_zero (S := S512x1) zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

theorem pieceC_3 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x256 .f32) (x1 : Vec F S1024x256 .f32) (x2 : Vec F S512x1 .i32) (x3 : Vec F S1x1024 .i32) (xs0 xs1 xs2 xs3 : Vec F S512x1 .f32) :
    v.read (Elt F) (v.writes (Elt F) v.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1)
      = k0_pay4 (k0_pay11 x0 x1) (k0_pay14 x2 x3) xs2 := by
  rw [View.read_writes_junk_eq_canon]
  unfold kernelRun0_C
  dsimp only
  sl_unfold_words
  rw [View.canon_unit_zero (S := S512x1) zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

theorem pieceC_4 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x256 .f32) (x1 : Vec F S1024x256 .f32) (x2 : Vec F S512x1 .i32) (x3 : Vec F S1x1024 .i32) (xs0 xs1 xs2 xs3 : Vec F S512x1 .f32) :
    v.read (Elt F) (v.writes (Elt F) v.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1)
      = k0_pay5 (k0_pay11 x0 x1) (k0_pay14 x2 x3) xs3 := by
  rw [View.read_writes_junk_eq_canon]
  unfold kernelRun0_C
  dsimp only
  sl_unfold_words
  rw [View.canon_unit_zero (S := S512x1) zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

theorem pieceC_0 (v : View sig .tc .vmem S512x1 .f32) (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x256 .f32) (x1 : Vec F S1024x256 .f32) (x2 : Vec F S512x1 .i32) (x3 : Vec F S1x1024 .i32) (xs0 xs1 xs2 xs3 : Vec F S512x1 .f32) :
    v.read (Elt F) (v.writes (Elt F) v.junk (kernelRun0_C c i arg2 harg2 arg3 harg3 arg4 harg4 arg5 harg5 arg6 harg6 arg7 harg7 arg8 harg8 arg9 harg9 arg10 harg10 hc0 hc1 x0 x1 x2 x3 xs0 xs1 xs2 xs3).1)
      = k0_pay6 (k0_pay15 (BitVec.ofNat 32 (i 0).val) (BitVec.ofNat 32 (i 1).val) (k0_pay11 x0 x1) x2 x3 xs0)
          (k0_pay1 (k0_pay16 (BitVec.ofNat 32 (i 0).val) (BitVec.ofNat 32 (i 1).val) x2 x3 xs1))
          (k0_pay4 (k0_pay11 x0 x1) (k0_pay14 x2 x3) xs2)
          (k0_pay5 (k0_pay11 x0 x1) (k0_pay14 x2 x3) xs3) := by
  rw [View.read_writes_junk_eq_canon]
  unfold kernelRun0_C
  dsimp only
  sl_unfold_words
  rw [View.canon_unit_zero (S := S512x1) zoff, View.readCov_unit_zero (S := S512x1) _ zoff,
    View.readCov_unit_zero (S := S512x1) _ zoff, View.readCov_unit_zero (S := S512x1) _ zoff,
    View.readCov_unit_zero (S := S512x1) _ zoff]
  simp only [View.readAt_eq_ld, harg2.read_unread, harg3.read_unread, harg4.read_unread, harg5.read_unread,
    harg7.read_unread, harg8.read_unread, harg9.read_unread, harg10.read_unread,
    View.ld_unit_zero (S := S512x256) zoff, View.ld_unit_zero (S := S1024x256) zoff, View.ld_unit_zero (S := S512x1) zoff,
    View.ld_unit_zero (S := S1x1024) zoff]

/-! ## The three cases at a grid point

The same, for the buffers the body is called with at point t: the input blocks are the windows' blocks of the
arrays, the grid coordinates enter the diagonal mask as words. -/

variable (m : (ℓ : Loc nD τ sig) → Buf (Elt F) ℓ)

/-- The reset case's hinge sum. -/
theorem outA_1 (c : Dev nD) (t : Fin cfg0.N) (h0 : cond0_0 (grid0.coords t)) (h1 : ¬cond0_1 (grid0.coords t)) :
    (outA m c t h0 h1).2.1
      = k0_pay15 (BitVec.ofNat 32 ((grid0.coords t) 0).val) (BitVec.ofNat 32 ((grid0.coords t) 1).val) (k0_pay11 (iblk m c 0 t) (iblk m c 1 t)) (iblk m c 2 t) (iblk m c 3 t) k0_pay7 :=
  pieceA_1 VS0_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)

/-- The reset case's count sum. -/
theorem outA_2 (c : Dev nD) (t : Fin cfg0.N) (h0 : cond0_0 (grid0.coords t)) (h1 : ¬cond0_1 (grid0.coords t)) :
    (outA m c t h0 h1).2.2.1
      = k0_pay1 (k0_pay16 (BitVec.ofNat 32 ((grid0.coords t) 0).val) (BitVec.ofNat 32 ((grid0.coords t) 1).val) (iblk m c 2 t) (iblk m c 3 t) k0_pay8) :=
  pieceA_2 VS0_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)

/-- The reset case's weighted sum. -/
theorem outA_3 (c : Dev nD) (t : Fin cfg0.N) (h0 : cond0_0 (grid0.coords t)) (h1 : ¬cond0_1 (grid0.coords t)) :
    (outA m c t h0 h1).2.2.2.1
      = k0_pay4 (k0_pay11 (iblk m c 0 t) (iblk m c 1 t)) (k0_pay14 (iblk m c 2 t) (iblk m c 3 t)) k0_pay9 :=
  pieceA_3 VS0_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)

/-- The reset case's weight sum. -/
theorem outA_4 (c : Dev nD) (t : Fin cfg0.N) (h0 : cond0_0 (grid0.coords t)) (h1 : ¬cond0_1 (grid0.coords t)) :
    (outA m c t h0 h1).2.2.2.2
      = k0_pay5 (k0_pay11 (iblk m c 0 t) (iblk m c 1 t)) (k0_pay14 (iblk m c 2 t) (iblk m c 3 t)) k0_pay10 :=
  pieceA_4 VS0_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t)

/-- The middle case's hinge sum. -/
theorem outB_1 (c : Dev nD) (t : Fin cfg0.N) (h0 : ¬cond0_0 (grid0.coords t)) (h1 : ¬cond0_1 (grid0.coords t)) (p : Outs F) :
    (outB m c t h0 h1 p).2.1
      = k0_pay15 (BitVec.ofNat 32 ((grid0.coords t) 0).val) (BitVec.ofNat 32 ((grid0.coords t) 1).val) (k0_pay11 (iblk m c 0 t) (iblk m c 1 t)) (iblk m c 2 t) (iblk m c 3 t) p.2.1 :=
  pieceB_1 VS0_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2

/-- The middle case's count sum. -/
theorem outB_2 (c : Dev nD) (t : Fin cfg0.N) (h0 : ¬cond0_0 (grid0.coords t)) (h1 : ¬cond0_1 (grid0.coords t)) (p : Outs F) :
    (outB m c t h0 h1 p).2.2.1
      = k0_pay1 (k0_pay16 (BitVec.ofNat 32 ((grid0.coords t) 0).val) (BitVec.ofNat 32 ((grid0.coords t) 1).val) (iblk m c 2 t) (iblk m c 3 t) p.2.2.1) :=
  pieceB_2 VS0_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2

/-- The middle case's weighted sum. -/
theorem outB_3 (c : Dev nD) (t : Fin cfg0.N) (h0 : ¬cond0_0 (grid0.coords t)) (h1 : ¬cond0_1 (grid0.coords t)) (p : Outs F) :
    (outB m c t h0 h1 p).2.2.2.1
      = k0_pay4 (k0_pay11 (iblk m c 0 t) (iblk m c 1 t)) (k0_pay14 (iblk m c 2 t) (iblk m c 3 t)) p.2.2.2.1 :=
  pieceB_3 VS0_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2

/-- The middle case's weight sum. -/
theorem outB_4 (c : Dev nD) (t : Fin cfg0.N) (h0 : ¬cond0_0 (grid0.coords t)) (h1 : ¬cond0_1 (grid0.coords t)) (p : Outs F) :
    (outB m c t h0 h1 p).2.2.2.2
      = k0_pay5 (k0_pay11 (iblk m c 0 t) (iblk m c 1 t)) (k0_pay14 (iblk m c 2 t) (iblk m c 3 t)) p.2.2.2.2 :=
  pieceB_4 VS0_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2

/-- The finishing case's hinge sum. -/
theorem outC_1 (c : Dev nD) (t : Fin cfg0.N) (h0 : ¬cond0_0 (grid0.coords t)) (h1 : cond0_1 (grid0.coords t)) (p : Outs F) :
    (outC m c t h0 h1 p).2.1
      = k0_pay15 (BitVec.ofNat 32 ((grid0.coords t) 0).val) (BitVec.ofNat 32 ((grid0.coords t) 1).val) (k0_pay11 (iblk m c 0 t) (iblk m c 1 t)) (iblk m c 2 t) (iblk m c 3 t) p.2.1 :=
  pieceC_1 VS0_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2

/-- The finishing case's count sum. -/
theorem outC_2 (c : Dev nD) (t : Fin cfg0.N) (h0 : ¬cond0_0 (grid0.coords t)) (h1 : cond0_1 (grid0.coords t)) (p : Outs F) :
    (outC m c t h0 h1 p).2.2.1
      = k0_pay1 (k0_pay16 (BitVec.ofNat 32 ((grid0.coords t) 0).val) (BitVec.ofNat 32 ((grid0.coords t) 1).val) (iblk m c 2 t) (iblk m c 3 t) p.2.2.1) :=
  pieceC_2 VS0_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2

/-- The finishing case's weighted sum. -/
theorem outC_3 (c : Dev nD) (t : Fin cfg0.N) (h0 : ¬cond0_0 (grid0.coords t)) (h1 : cond0_1 (grid0.coords t)) (p : Outs F) :
    (outC m c t h0 h1 p).2.2.2.1
      = k0_pay4 (k0_pay11 (iblk m c 0 t) (iblk m c 1 t)) (k0_pay14 (iblk m c 2 t) (iblk m c 3 t)) p.2.2.2.1 :=
  pieceC_3 VS0_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2

/-- The finishing case's weight sum. -/
theorem outC_4 (c : Dev nD) (t : Fin cfg0.N) (h0 : ¬cond0_0 (grid0.coords t)) (h1 : cond0_1 (grid0.coords t)) (p : Outs F) :
    (outC m c t h0 h1 p).2.2.2.2
      = k0_pay5 (k0_pay11 (iblk m c 0 t) (iblk m c 1 t)) (k0_pay14 (iblk m c 2 t) (iblk m c 3 t)) p.2.2.2.2 :=
  pieceC_4 VS0_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2

/-- The finishing case's output block, from the four new sums spelt out. -/
theorem outC_0 (c : Dev nD) (t : Fin cfg0.N) (h0 : ¬cond0_0 (grid0.coords t)) (h1 : cond0_1 (grid0.coords t)) (p : Outs F) :
    (outC m c t h0 h1 p).1
      = k0_pay6 (k0_pay15 (BitVec.ofNat 32 ((grid0.coords t) 0).val) (BitVec.ofNat 32 ((grid0.coords t) 1).val) (k0_pay11 (iblk m c 0 t) (iblk m c 1 t)) (iblk m c 2 t) (iblk m c 3 t) p.2.1)
          (k0_pay1 (k0_pay16 (BitVec.ofNat 32 ((grid0.coords t) 0).val) (BitVec.ofNat 32 ((grid0.coords t) 1).val) (iblk m c 2 t) (iblk m c 3 t) p.2.2.1))
          (k0_pay4 (k0_pay11 (iblk m c 0 t) (iblk m c 1 t)) (k0_pay14 (iblk m c 2 t) (iblk m c 3 t)) p.2.2.2.1)
          (k0_pay5 (k0_pay11 (iblk m c 0 t) (iblk m c 1 t)) (k0_pay14 (iblk m c 2 t) (iblk m c 3 t)) p.2.2.2.2) :=
  pieceC_0 VO0_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) p.2.1 p.2.2.1 p.2.2.2.1 p.2.2.2.2

/-- The finishing case's output block, from the case's own four new sums. -/
theorem outC_0' (c : Dev nD) (t : Fin cfg0.N) (h0 : ¬cond0_0 (grid0.coords t)) (h1 : cond0_1 (grid0.coords t)) (p : Outs F) :
    (outC m c t h0 h1 p).1
      = k0_pay6 (outC m c t h0 h1 p).2.1 (outC m c t h0 h1 p).2.2.1 (outC m c t h0 h1 p).2.2.2.1 (outC m c t h0 h1 p).2.2.2.2 := by
  rw [outC_1, outC_2, outC_3, outC_4]
  exact outC_0 m c t h0 h1 p

end Cert.KernelIdeal.Gen

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.BlockMathOps.lean ====
/-
  The operations a pairwise-distance tile is made of, read at an index given by its coordinates, at the exact values:
  row sums kept as a column and spread over a tile either way, rows divided by their shifted norm, the product with a
  transposed matrix, a row sum added to a running column, and the one-bit words of the masks.
-/
import proofs.«144597_j3556232921179_1_alg».proof.Proof.LibColumns
import proofs.«144597_j3556232921179_1_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BlockMath

open Idealize.ShloMosaic Idealize.ShloMosaic.ValueIdx

variable {a b n : ℕ}

/-! ## Row sums kept as a column, and the two ways a pairwise tile spreads them -/

/-- Row sums of an `[a, b]` matrix kept as an `[a, 1]` column: at `(p, u)`, the sum over row `p`. -/
theorem rowSum_col_apply (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src acc h hφ hacc) hc (ix2 p u) = ∑ k : Fin b, src (ix2 p k) :=
  (Cert.LibColumns.shapeCast_a_a1_apply _ hc p u).trans (Cert.LibColumns.multiReduction_add_rows_apply src acc h hφ hacc p)

/-- The column of row sums spread along the rows of an `[a, n]` tile: at `(p, c)`, the sum over row `p`. -/
theorem rowSum_down_apply (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (Cert.LibColumns.broadcastTo_a1_ab_apply _ hb p c).trans (rowSum_col_apply src acc h hφ hacc hc p 0)

/-- The column of row sums turned into a row and spread down the columns of an `[n, a]` tile: at `(p, c)`, the sum
    over row `c` of the source. -/
theorem rowSum_along_apply (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (ht : (⟨2, ![a, 1]⟩ : Shape).Transposes [1, 0] ⟨2, ![1, a]⟩)
    (hb : (⟨2, ![1, a]⟩ : Shape).Broadcasts ⟨2, ![n, a]⟩) (p : Fin n) (c : Fin a) :
    broadcastTo ⟨2, ![n, a]⟩
        (transpose ⟨2, ![1, a]⟩ [1, 0] (shapeCast ⟨2, ![a, 1]⟩ (multiReduction .add [1] ⟨1, ![a]⟩ src acc h hφ hacc) hc) ht) hb
        (ix2 p c)
      = ∑ k : Fin b, src (ix2 c k) :=
  (broadcastTo_1b_ab_apply _ hb p c).trans
    ((transpose_ix2_apply _ ht (0 : Fin 1) c).trans (rowSum_col_apply src acc h hφ hacc hc c 0))

/-- A matrix whose every row is divided by (the root of its sum of squares, plus `e`): at `(p, k)`, with the row's
    entries named `y`. -/
theorem normed_apply (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (e : EReal) (p : Fin a) (k : Fin b) (y : Fin b → EReal) (hy : ∀ k, v (ix2 p k) = y k) :
    divf v (broadcastTo ⟨2, ![a, b]⟩
        (addf (sqrt (shapeCast ⟨2, ![a, 1]⟩ (multiReduction .add [1] ⟨1, ![a]⟩ (mulf v v) acc h hφ hacc) hc))
          (broadcast (⟨2, ![a, 1]⟩ : Shape) (e : Ideal .f32))) hb) (ix2 p k)
      = Ideal.div (y k) (Ideal.sqrt (∑ k' : Fin b, y k' * y k') + e) := by
  show Ideal.div (v (ix2 p k)) (broadcastTo ⟨2, ![a, b]⟩ _ hb (ix2 p k)) = _
  rw [hy k]
  refine congrArg (Ideal.div (y k)) ?_
  refine (Cert.LibColumns.broadcastTo_a1_ab_apply _ hb p k).trans ?_
  show Ideal.sqrt (shapeCast ⟨2, ![a, 1]⟩ _ hc (ix2 p (0 : Fin 1))) + e = _
  refine congrArg (fun t => Ideal.sqrt t + e) ?_
  refine (rowSum_col_apply (mulf v v) acc h hφ hacc hc p 0).trans ?_
  exact Finset.sum_congr rfl fun k' _ => by
    show v (ix2 p k') * v (ix2 p k') = _
    rw [hy k']

/-- The product of an `[M, K]` matrix with the transpose of an `[N, K]` one, both first rounded to a narrower format
    (the identity on the exact values), into a zero accumulator: at `(i, j)`, the inner product of row `i` of the
    first with row `j` of the second. -/
theorem matmul_nt_apply {M N K : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (A : FVec Ideal ⟨2, ![M, K]⟩ .f32) (B : FVec Ideal ⟨2, ![N, K]⟩ .f32) (hlt : FTy.bits .bf16 < FTy.bits .f32)
    (ht : (⟨2, ![N, K]⟩ : Shape).Transposes [1, 0] ⟨2, ![K, N]⟩) (i : Fin M) (j : Fin N) :
    matmul d none (truncf .bf16 A hlt) (transpose ⟨2, ![K, N]⟩ [1, 0] (truncf .bf16 B hlt) ht)
        (constant ⟨2, ![M, N]⟩ .f32 0x00000000#32) (ix2 i j)
      = ∑ k : Fin K, A (ix2 i k) * B (ix2 j k) := by
  refine (Cert.LibMatmulNN.matmul_nn_apply d hlc hrc hln hrn hlb hrb none _ _ i j).trans ?_
  refine Finset.sum_congr rfl fun k _ => ?_
  show A (ix2 i k) * transpose ⟨2, ![K, N]⟩ [1, 0] (truncf .bf16 B hlt) ht (ix2 k j) = _
  rw [transpose_ix2_apply _ ht k j]
  rfl

/-! ## Accumulating a row sum into a column -/

/-- A column plus the column of row sums of a tile: at `(p, u)`, the column's entry plus the sum over row `p`. -/
theorem acc_rowSum_apply (s : FVec Ideal ⟨2, ![a, 1]⟩ .f32) (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (p : Fin a) (u : Fin 1) :
    addf s (shapeCast ⟨2, ![a, 1]⟩ (multiReduction .add [1] ⟨1, ![a]⟩ src acc h hφ hacc) hc) (ix2 p u)
      = s (ix2 p u) + ∑ k : Fin b, src (ix2 p k) :=
  congrArg (s (ix2 p u) + ·) (rowSum_col_apply src acc h hφ hacc hc p u)

/-- The same, re-cast to its own shape. -/
theorem acc_rowSum_cast_apply (s : FVec Ideal ⟨2, ![a, 1]⟩ .f32) (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hs : (⟨2, ![a, 1]⟩ : Shape).ShapeCasts ⟨2, ![a, 1]⟩) (p : Fin a) (u : Fin 1) :
    shapeCast ⟨2, ![a, 1]⟩ (addf s (shapeCast ⟨2, ![a, 1]⟩ (multiReduction .add [1] ⟨1, ![a]⟩ src acc h hφ hacc) hc)) hs (ix2 p u)
      = s (ix2 p u) + ∑ k : Fin b, src (ix2 p k) :=
  (congrFun (shapeCast_self _ hs) _).trans (acc_rowSum_apply s src acc h hφ hacc hc p u)

/-! ## One-bit words -/

theorem andi_ofBool (A B : Bool) : IntOp.andi (BitVec.ofBool A) (BitVec.ofBool B) = BitVec.ofBool (A && B) := by
  cases A <;> cases B <;> rfl

theorem xori_ofBool_one (A : Bool) : IntOp.xori (BitVec.ofBool A) 1#1 = BitVec.ofBool (!A) := by
  cases A <;> rfl

theorem cmpi_eq_ofBool {w : ℕ} (u v : BitVec w) : IntOp.cmpi .eq u v = BitVec.ofBool (decide (u = v)) := by
  show BitVec.ofBool (u == v) = _
  rw [beq_eq_decide]

theorem select_ofBool {α : Type} (A : Bool) (u v : α) : Scalar.select (BitVec.ofBool A) u v = if A then u else v := by
  cases A
  · exact select_zero u v
  · exact select_one u v

/-- A truth value widened to 32 bits and converted as a signed integer: one or zero. -/
theorem sitofp_extui_ofBool (A : Bool) :
    (FloatOps.sitofp (F := Ideal) .f32 ((BitVec.ofBool A).setWidth 32) : EReal) = if A then 1 else 0 := by
  cases A
  · show ((((BitVec.ofBool false).setWidth 32).toInt : ℝ) : EReal) = 0
    have h1 : ((BitVec.ofBool false).setWidth 32).toInt = 0 := by decide
    rw [h1]; simp
  · show ((((BitVec.ofBool true).setWidth 32).toInt : ℝ) : EReal) = 1
    have h1 : ((BitVec.ofBool true).setWidth 32).toInt = 1 := by decide
    rw [h1]; simp

/-- Row and column numbers below 2³² are equal as 32-bit words exactly when they are equal. -/
theorem ofNat32_eq_iff (m k : ℕ) (hm : m < 4294967296) (hk : k < 4294967296) :
    BitVec.ofNat 32 m = BitVec.ofNat 32 k ↔ m = k := by
  constructor
  · intro h
    have := congrArg BitVec.toNat h
    rw [BitVec.toNat_ofNat, BitVec.toNat_ofNat] at this
    omega
  · intro h; rw [h]

/-- Block number times block size plus the position inside the block, computed on 32-bit words, is the row number. -/
theorem word_row (g c r : ℕ) (hr : g * c + r < 4294967296) :
    IntOp.addi (Scalar.muli (BitVec.ofNat 32 g) (BitVec.ofNat 32 c)) (BitVec.ofNat 32 r) = BitVec.ofNat 32 (g * c + r) := by
  show BitVec.ofNat 32 g * BitVec.ofNat 32 c + BitVec.ofNat 32 r = _
  rw [← BitVec.ofNat_mul, ← BitVec.ofNat_add]

end Cert.BlockMath

end
-- ==== Proof.BlockMathDist.lean ====
/-
  The distance a tile of the pairwise kernel computes, entry by entry, is the specification's clamped distance of the
  two rows the entry stands for.
-/
import proofs.«144597_j3556232921179_1_alg».proof.Proof.Spec
import proofs.«144597_j3556232921179_1_alg».proof.Proof.BlockMath
import proofs.«144597_j3556232921179_1_alg».proof.Proof.BlockMathOps
import proofs.«144597_j3556232921179_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BlockMath

open Idealize.ShloMosaic Idealize.ShloMosaic.ValueIdx Cert.KernelIdeal Cert.KernelIdeal.Gen

variable (x : Fin 8192 → Fin 256 → EReal) (i : Fin 16) (j : Fin 8)

/-- The clamped distance of the tile's entry `(p, q)`: row `512·i + p` against row `1024·j + q`. Both blocks are
    normalised row by row from their own entries (a block holds whole rows), the squared lengths are spread down and
    along the tile, and the inner products come from the product with the transposed block. -/
theorem pay11_apply (x0 : Vec Ideal S512x256 .f32) (x1 : Vec Ideal S1024x256 .f32)
    (h0 : ∀ p k, x0 (ix2 p k) = x (R i p) k) (h1 : ∀ q k, x1 (ix2 q k) = x (C j q) k) (p : Fin 512) (q : Fin 1024) :
    k0_pay11 (F := Ideal) x0 x1 (ix2 p q) = Spec.dist x (R i p) (C j q) := by
  unfold k0_pay11
  dsimp only
  show Ideal.sqrt (max (broadcastTo S512x1024 _ broadcasts_S512x1_S512x1024 (ix2 p q)
      + broadcastTo S512x1024 _ broadcasts_S1x1024_S512x1024 (ix2 p q)
      - Spec.two * matmul (F := Ideal) dot_S512x256_S256x1024_S512x1024_1_0_0_1_n_n none _ _ _ (ix2 p q)) Spec.eps) = _
  have hn0 := fun k =>
    normed_apply x0 0x00000000#32 reduces_S512x256_S512 (.inl rfl) rfl shapeCasts_S512_S512x1 broadcasts_S512x1_S512x256
      Spec.eps p k (x (R i p)) (h0 p)
  have hn1 := fun k =>
    normed_apply x1 0x00000000#32 reduces_S1024x256_S1024 (.inl rfl) rfl shapeCasts_S1024_S1024x1 broadcasts_S1024x1_S1024x256
      Spec.eps q k (x (C j q)) (h1 q)
  refine congrArg Ideal.sqrt (congrArg (max · Spec.eps) ?_)
  refine congrArg₂ (· - ·) (congrArg₂ (· + ·) ?_ ?_) (congrArg (Spec.two * ·) ?_)
  · refine (rowSum_down_apply _ _ _ _ _ _ _ p q).trans ?_
    exact Finset.sum_congr rfl fun k _ => congrArg₂ (· * ·) (hn0 k) (hn0 k)
  · refine (rowSum_along_apply _ _ _ _ _ _ _ _ p q).trans ?_
    exact Finset.sum_congr rfl fun k _ => congrArg₂ (· * ·) (hn1 k) (hn1 k)
  · refine (matmul_nt_apply _ rfl rfl rfl rfl rfl rfl _ _ _ _ p q).trans ?_
    exact Finset.sum_congr rfl fun k _ => congrArg₂ (· * ·) (hn0 k) (hn1 k)

end Cert.BlockMath

end
-- ==== Proof.BlockMathMask.lean ====
/-
  The two masks of a tile of the pairwise kernel, entry by entry: a pair of rows is positive when the labels agree and
  the rows are distinct, negative when the labels differ. The kernel tells distinct rows apart by comparing the two
  row numbers, each rebuilt from its block number and its position inside the block.
-/
import proofs.«144597_j3556232921179_1_alg».proof.Proof.Spec
import proofs.«144597_j3556232921179_1_alg».proof.Proof.BlockMath
import proofs.«144597_j3556232921179_1_alg».proof.Proof.BlockMathOps
import proofs.«144597_j3556232921179_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BlockMath

open Idealize.ShloMosaic Idealize.ShloMosaic.ValueIdx Cert.KernelIdeal Cert.KernelIdeal.Gen

variable (lab : Fin 8192 → BitVec 32) (i : Fin 16) (j : Fin 8)

/-- The label test of the tile's entry `(p, q)`: the label column spread along the rows against the label row
    spread down the columns. -/
theorem pay12_apply (l2 : Vec Ideal S512x1 .i32) (l3 : Vec Ideal S1x1024 .i32)
    (h2 : ∀ p, l2 (ix2 p 0) = lab (R i p)) (h3 : ∀ q, l3 (ix2 0 q) = lab (C j q)) (p : Fin 512) (q : Fin 1024) :
    k0_pay12 (F := Ideal) l2 l3 (ix2 p q) = BitVec.ofBool (decide (lab (R i p) = lab (C j q))) := by
  unfold k0_pay12
  show IntOp.cmpi .eq (broadcastTo S512x1024 _ broadcasts_S512x1_S512x1024 (ix2 p q))
      (broadcastTo S512x1024 _ broadcasts_S1x1024_S512x1024 (ix2 p q)) = _
  have e2 : broadcastTo S512x1024 (shapeCast S512x1 l2 shapeCasts_S512x1_S512x1) broadcasts_S512x1_S512x1024 (ix2 p q)
      = lab (R i p) :=
    (Cert.LibColumns.broadcastTo_a1_ab_apply _ broadcasts_S512x1_S512x1024 p q).trans
      ((congrFun (shapeCast_self l2 shapeCasts_S512x1_S512x1) _).trans (h2 p))
  have e3 : broadcastTo S512x1024 (shapeCast S1x1024 l3 shapeCasts_S1x1024_S1x1024) broadcasts_S1x1024_S512x1024 (ix2 p q)
      = lab (C j q) :=
    (broadcastTo_1b_ab_apply _ broadcasts_S1x1024_S512x1024 p q).trans
      ((congrFun (shapeCast_self l3 shapeCasts_S1x1024_S1x1024) _).trans (h3 q))
  rw [cmpi_eq_ofBool]
  exact congrArg BitVec.ofBool (congrArg₂ (fun u v : BitVec 32 => decide (u = v)) e2 e3)

/-- The row number of the tile's entry, computed on 32-bit words from the block number and the position inside the
    block: no wrap, every row number is below 8192. -/
theorem rowWord_apply (p : Fin 512) (q : Fin 1024) :
    IntOp.addi (Scalar.muli (BitVec.ofNat 32 i.val) 512#32) (iota .tc S512x1024 32 [0] iota_S512x1024_d0_w32 (ix2 p q))
      = BitVec.ofNat 32 (R i p).val := by
  rw [iota_single_apply]
  exact word_row i.val 512 p.val (by have := i.isLt; have := p.isLt; omega)

theorem colWord_apply (p : Fin 512) (q : Fin 1024) :
    IntOp.addi (Scalar.muli (BitVec.ofNat 32 j.val) 1024#32) (iota .tc S512x1024 32 [1] iota_S512x1024_d1_w32 (ix2 p q))
      = BitVec.ofNat 32 (C j q).val := by
  rw [iota_single_apply]
  exact word_row j.val 1024 q.val (by have := j.isLt; have := q.isLt; omega)

/-- The two row numbers differ as words exactly when the rows differ. -/
theorem offDiag (r c : Fin 8192) :
    (!decide (BitVec.ofNat 32 r.val = BitVec.ofNat 32 c.val)) = decide (r ≠ c) := by
  rw [← decide_not]
  exact decide_eq_decide.mpr (not_congr ((ofNat32_eq_iff r.val c.val (by have := r.isLt; omega) (by have := c.isLt; omega)).trans
    Fin.val_inj))

/-- The positive-pair mask of the tile's entry: equal labels, off the diagonal of the whole matrix. -/
theorem pay13_apply (l2 : Vec Ideal S512x1 .i32) (l3 : Vec Ideal S1x1024 .i32)
    (h2 : ∀ p, l2 (ix2 p 0) = lab (R i p)) (h3 : ∀ q, l3 (ix2 0 q) = lab (C j q)) (p : Fin 512) (q : Fin 1024) :
    k0_pay13 (F := Ideal) (BitVec.ofNat 32 i.val) (BitVec.ofNat 32 j.val) l2 l3 (ix2 p q)
      = BitVec.ofBool (Spec.pos lab (R i p) (C j q)) := by
  unfold k0_pay13
  dsimp only
  show IntOp.andi (k0_pay12 (F := Ideal) l2 l3 (ix2 p q))
      (IntOp.xori (IntOp.cmpi .eq
        (IntOp.addi (Scalar.muli (BitVec.ofNat 32 i.val) 512#32) (iota .tc S512x1024 32 [0] iota_S512x1024_d0_w32 (ix2 p q)))
        (IntOp.addi (Scalar.muli (BitVec.ofNat 32 j.val) 1024#32) (iota .tc S512x1024 32 [1] iota_S512x1024_d1_w32 (ix2 p q))))
        1#1) = _
  rw [pay12_apply lab i j l2 l3 h2 h3 p q, rowWord_apply i p q, colWord_apply j p q, cmpi_eq_ofBool, xori_ofBool_one,
    andi_ofBool, offDiag]
  rfl

/-- The negative-pair mask of the tile's entry: distinct labels. -/
theorem pay14_apply (l2 : Vec Ideal S512x1 .i32) (l3 : Vec Ideal S1x1024 .i32)
    (h2 : ∀ p, l2 (ix2 p 0) = lab (R i p)) (h3 : ∀ q, l3 (ix2 0 q) = lab (C j q)) (p : Fin 512) (q : Fin 1024) :
    k0_pay14 (F := Ideal) l2 l3 (ix2 p q) = BitVec.ofBool (Spec.neg lab (R i p) (C j q)) := by
  unfold k0_pay14
  show IntOp.xori (k0_pay12 (F := Ideal) l2 l3 (ix2 p q)) 1#1 = _
  rw [pay12_apply lab i j l2 l3 h2 h3 p q, xori_ofBool_one]
  rfl

end Cert.BlockMath

end
-- ==== Proof.BlockMathSums.lean ====
/-
  What one tile of the pairwise kernel adds to a row's four running sums: the hinge terms of the row's positives,
  their number, the exponentially weighted (α − d) of the row's near negatives, and the weights themselves — each a sum
  over the tile's 1024 columns of the specification's term for the pair of rows the entry stands for.
-/
import proofs.«144597_j3556232921179_1_alg».proof.Proof.Spec
import proofs.«144597_j3556232921179_1_alg».proof.Proof.BlockMath
import proofs.«144597_j3556232921179_1_alg».proof.Proof.BlockMathOps
import proofs.«144597_j3556232921179_1_alg».proof.Proof.BlockMathDist
import proofs.«144597_j3556232921179_1_alg».proof.Proof.BlockMathMask
import proofs.«144597_j3556232921179_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BlockMath

open Idealize.ShloMosaic Idealize.ShloMosaic.ValueIdx Cert.KernelIdeal Cert.KernelIdeal.Gen

variable (x : Fin 8192 → Fin 256 → EReal) (lab : Fin 8192 → BitVec 32) (i : Fin 16) (j : Fin 8)

section
variable (x0 : Vec Ideal S512x256 .f32) (x1 : Vec Ideal S1024x256 .f32) (l2 : Vec Ideal S512x1 .i32) (l3 : Vec Ideal S1x1024 .i32)
  (h0 : ∀ p k, x0 (ix2 p k) = x (R i p) k) (h1 : ∀ q k, x1 (ix2 q k) = x (C j q) k)
  (h2 : ∀ p, l2 (ix2 p 0) = lab (R i p)) (h3 : ∀ q, l3 (ix2 0 q) = lab (C j q))
include h0 h1 h2 h3

/-- The exponential weight of the tile's entry `(p, q)`. -/
theorem pay3_apply (p : Fin 512) (q : Fin 1024) :
    k0_pay3 (F := Ideal) (k0_pay11 x0 x1) (k0_pay14 l2 l3) (ix2 p q) = Spec.wt x lab (R i p) (C j q) := by
  show Scalar.select (IntOp.andi (k0_pay14 (F := Ideal) l2 l3 (ix2 p q))
        (Ideal.cmp .olt (k0_pay11 (F := Ideal) x0 x1 (ix2 p q)) Spec.alpha))
      (Ideal.exp (Spec.one * (Spec.alpha - k0_pay11 (F := Ideal) x0 x1 (ix2 p q)))) (Ideal.ofBits .f32 0x00000000#32) = _
  rw [pay14_apply lab i j l2 l3 h2 h3 p q, pay11_apply x i j x0 x1 h0 h1 p q]
  show Scalar.select (IntOp.andi (BitVec.ofBool (Spec.neg lab (R i p) (C j q)))
        (BitVec.ofBool (decide (Spec.dist x (R i p) (C j q) < Spec.alpha))))
      (Ideal.exp (Spec.one * (Spec.alpha - Spec.dist x (R i p) (C j q)))) (Ideal.ofBits .f32 0x00000000#32) = _
  rw [andi_ofBool, select_ofBool, Ideal.ofBits_zero_f32]
  rfl

/-- The hinge sum of a row of the tile, added to the running sum. -/
theorem pay15_apply (s : Vec Ideal S512x1 .f32) (p : Fin 512) :
    k0_pay15 (F := Ideal) (BitVec.ofNat 32 i.val) (BitVec.ofNat 32 j.val) (k0_pay11 x0 x1) l2 l3 s (ix2 p 0)
      = s (ix2 p 0) + ∑ q : Fin 1024, Spec.ap x lab (R i p) (C j q) := by
  unfold k0_pay15
  dsimp only
  refine (acc_rowSum_cast_apply s _ _ _ _ _ _ _ p 0).trans ?_
  refine congrArg (s (ix2 p 0) + ·) (Finset.sum_congr rfl fun q _ => ?_)
  show Scalar.select (k0_pay13 (F := Ideal) (BitVec.ofNat 32 i.val) (BitVec.ofNat 32 j.val) l2 l3 (ix2 p q))
      (max (k0_pay11 (F := Ideal) x0 x1 (ix2 p q) + Spec.shift) (Ideal.ofBits .f32 0x00000000#32))
      (Ideal.ofBits .f32 0x00000000#32) = _
  rw [pay13_apply lab i j l2 l3 h2 h3 p q, pay11_apply x i j x0 x1 h0 h1 p q, select_ofBool, Ideal.ofBits_zero_f32]
  rfl

/-- The weighted sum of (α − d) over a row of the tile, added to the running sum. -/
theorem pay4_apply (s : Vec Ideal S512x1 .f32) (p : Fin 512) :
    k0_pay4 (F := Ideal) (k0_pay11 x0 x1) (k0_pay14 l2 l3) s (ix2 p 0)
      = s (ix2 p 0) + ∑ q : Fin 1024, Spec.lm x (R i p) (C j q) * Spec.wt x lab (R i p) (C j q) := by
  unfold k0_pay4
  dsimp only
  refine (acc_rowSum_cast_apply s _ _ _ _ _ _ _ p 0).trans ?_
  refine congrArg (s (ix2 p 0) + ·) (Finset.sum_congr rfl fun q _ => ?_)
  show (Spec.alpha - k0_pay11 (F := Ideal) x0 x1 (ix2 p q))
      * k0_pay3 (F := Ideal) (k0_pay11 x0 x1) (k0_pay14 l2 l3) (ix2 p q) = _
  rw [pay3_apply x lab i j x0 x1 l2 l3 h0 h1 h2 h3 p q, pay11_apply x i j x0 x1 h0 h1 p q]
  rfl

/-- The sum of the weights over a row of the tile, added to the running sum. -/
theorem pay5_apply (s : Vec Ideal S512x1 .f32) (p : Fin 512) :
    k0_pay5 (F := Ideal) (k0_pay11 x0 x1) (k0_pay14 l2 l3) s (ix2 p 0)
      = s (ix2 p 0) + ∑ q : Fin 1024, Spec.wt x lab (R i p) (C j q) := by
  unfold k0_pay5
  dsimp only
  refine (acc_rowSum_cast_apply s _ _ _ _ _ _ _ p 0).trans ?_
  exact congrArg (s (ix2 p 0) + ·) (Finset.sum_congr rfl fun q _ => pay3_apply x lab i j x0 x1 l2 l3 h0 h1 h2 h3 p q)

end

section
variable (l2 : Vec Ideal S512x1 .i32) (l3 : Vec Ideal S1x1024 .i32)
  (h2 : ∀ p, l2 (ix2 p 0) = lab (R i p)) (h3 : ∀ q, l3 (ix2 0 q) = lab (C j q))
include h2 h3

/-- The number of positives in a row of the tile, added to the running count. -/
theorem pay16_apply (s : Vec Ideal S512x1 .f32) (p : Fin 512) :
    k0_pay16 (F := Ideal) (BitVec.ofNat 32 i.val) (BitVec.ofNat 32 j.val) l2 l3 s (ix2 p 0)
      = s (ix2 p 0) + ∑ q : Fin 1024, (if Spec.pos lab (R i p) (C j q) then (1 : EReal) else 0) := by
  unfold k0_pay16
  dsimp only
  refine (acc_rowSum_apply s _ _ _ _ _ _ p 0).trans ?_
  refine congrArg (s (ix2 p 0) + ·) (Finset.sum_congr rfl fun q _ => ?_)
  show FloatOps.sitofp (F := Ideal) .f32
      ((k0_pay13 (F := Ideal) (BitVec.ofNat 32 i.val) (BitVec.ofNat 32 j.val) l2 l3 (ix2 p q)).setWidth 32) = _
  rw [pay13_apply lab i j l2 l3 h2 h3 p q]
  exact sitofp_extui_ofBool _

end

end Cert.BlockMath

end
-- ==== Proof.BlockMathFinal.lean ====
/-
  The pieces of the pairwise kernel that do no tile arithmetic: the running sums' start at zero, the re-cast of a
  column to its own shape, and the final division of a row's two sums by their shifted counts.
-/
import proofs.«144597_j3556232921179_1_alg».proof.Proof.Spec
import proofs.«144597_j3556232921179_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BlockMath

open Idealize.ShloMosaic Idealize.ShloMosaic.ValueIdx Cert.KernelIdeal Cert.KernelIdeal.Gen

/-- An index of a 512-row column is its row coordinate and the one column. -/
theorem col_idx (y : S512x1.Idx) : y = ix2 (y 0) (0 : Fin 1) :=
  (eq_ix2 y).trans (congrArg (ix2 (y 0)) (Subsingleton.elim (α := Fin 1) _ _))

/-- The last column block's division: the two sums of a row over their shifted counts. -/
theorem pay6_apply (s7 s8 s9 s10 : Vec Ideal S512x1 .f32) (p : Fin 512) :
    k0_pay6 (F := Ideal) s7 s8 s9 s10 (ix2 p 0)
      = Ideal.div (s7 (ix2 p 0)) (s8 (ix2 p 0) + Spec.tiny) + Ideal.div (s9 (ix2 p 0)) (s10 (ix2 p 0) + Spec.tiny) := rfl

/-- The running sums start at zero: the word of all zero bits is the number zero. -/
theorem pay7_eq : k0_pay7 (F := Ideal) = fun _ => 0 := by
  unfold k0_pay7
  dsimp only
  rw [shapeCast_self]
  funext y
  exact Ideal.ofBits_zero_f32

theorem pay8_eq : k0_pay8 (F := Ideal) = fun _ => 0 := by
  unfold k0_pay8
  dsimp only
  rw [shapeCast_self]
  funext y
  exact Ideal.ofBits_zero_f32

theorem pay9_eq : k0_pay9 (F := Ideal) = fun _ => 0 := by
  unfold k0_pay9
  dsimp only
  rw [shapeCast_self]
  funext y
  exact Ideal.ofBits_zero_f32

theorem pay10_eq : k0_pay10 (F := Ideal) = fun _ => 0 := by
  unfold k0_pay10
  dsimp only
  rw [shapeCast_self]
  funext y
  exact Ideal.ofBits_zero_f32

/-- A column re-cast to its own shape is itself. -/
theorem pay1_eq (v : FVec Ideal S512x1 .f32) : k0_pay1 (F := Ideal) v = v := by
  unfold k0_pay1
  exact shapeCast_self v shapeCasts_S512x1_S512x1

end Cert.BlockMath

end
-- ==== Proof.KInduct.lean ====
/-
  The four running sums of the pairwise kernel after each grid point, and the output block after a row block's last
  point, by induction on the point.

  The grid runs over 16 row blocks of 512 rows and, inside each, 8 column blocks of 1024 rows. At a row block's
  first point the running sums are reset to zero plus the tile's partial sums; at every later point the tile's
  partial sums are added. So after the point with column block j the sums hold the partial sums of column blocks
  0, …, j, and after the last one the sums over all 8192 columns, regrouped by blocks. The output block is then the
  row's loss.
-/
import proofs.«144597_j3556232921179_1_alg».proof.Proof.FramePiecesI
import proofs.«144597_j3556232921179_1_alg».proof.Proof.KValue
import proofs.«144597_j3556232921179_1_alg».proof.Proof.BlockMathSums
import proofs.«144597_j3556232921179_1_alg».proof.Proof.BlockMathFinal

noncomputable section

open scoped BigOperators

namespace Cert.KernelIdeal.KValue

open Idealize.ShloMosaic Idealize.ShloMosaic.ValueIdx Cert.KernelIdeal Cert.KernelIdeal.Gen Cert.BlockMath

/-- The column block numbered j' (taken modulo 8, so that it is defined for every number). -/
def KInduct.jOf (j' : ℕ) : Fin 8 := ⟨j' % 8, Nat.mod_lt _ (by decide)⟩

theorem KInduct.jOf_val (j : Fin 8) : KInduct.jOf j.val = j := Fin.ext (Nat.mod_eq_of_lt j.isLt)

variable (m : (ℓ : Loc nD τ sig) → Buf (Elt Ideal) ℓ) (c : Dev nD)

/-! ## The recursion, for any component and any term -/

/-- If the reset case leaves zero plus the tile's partial sum and the other two cases add the tile's partial sum to
    what the point before left, then after point n the component holds the partial sums of the column blocks up to
    n's. -/
theorem KInduct.sums_induct (π : Outs Ideal → Vec Ideal S512x1 .f32) (T : Fin 8192 → Fin 8192 → EReal)
    (hA : ∀ (t : Fin cfg0.N) (h0 : cond0_0 (grid0.coords t)) (h1 : ¬cond0_1 (grid0.coords t)) (p : Fin 512),
      π (outA m c t h0 h1) (ix2 p 0) = 0 + ∑ q : Fin 1024, T (R (gi t) p) (C (gj t) q))
    (hB : ∀ (t : Fin cfg0.N) (h0 : ¬cond0_0 (grid0.coords t)) (h1 : ¬cond0_1 (grid0.coords t)) (o : Outs Ideal) (p : Fin 512),
      π (outB m c t h0 h1 o) (ix2 p 0) = π o (ix2 p 0) + ∑ q : Fin 1024, T (R (gi t) p) (C (gj t) q))
    (hC : ∀ (t : Fin cfg0.N) (h0 : ¬cond0_0 (grid0.coords t)) (h1 : cond0_1 (grid0.coords t)) (o : Outs Ideal) (p : Fin 512),
      π (outC m c t h0 h1 o) (ix2 p 0) = π o (ix2 p 0) + ∑ q : Fin 1024, T (R (gi t) p) (C (gj t) q)) :
    ∀ (n : ℕ) (hn : n < cfg0.N) (p : Fin 512),
      π (outsAt0 m c n hn) (ix2 p 0)
        = ∑ j' ∈ Finset.range (n % 8 + 1), ∑ q : Fin 1024, T (R (gi ⟨n, hn⟩) p) (C (KInduct.jOf j') q) := by
  have caseA : ∀ (n : ℕ) (hn : n < cfg0.N) (h0 : n % 8 = 0) (p : Fin 512),
      π (outsAt0 m c n hn) (ix2 p 0)
        = ∑ j' ∈ Finset.range (n % 8 + 1), ∑ q : Fin 1024, T (R (gi ⟨n, hn⟩) p) (C (KInduct.jOf j') q) := by
    intro n hn h0 p
    refine (congrArg (fun o => π o (ix2 p 0)) (outsAt0_A m c ⟨n, hn⟩ h0 (by show ¬n % 8 = 7; omega))).trans ?_
    refine (hA ⟨n, hn⟩ _ _ p).trans ?_
    have e : gj ⟨n, hn⟩ = KInduct.jOf 0 := Fin.ext (by show n % 8 = 0 % 8; omega)
    rw [zero_add, h0, Nat.zero_add, Finset.sum_range_one, e]
  intro n
  induction n with
  | zero => exact fun hn p => caseA 0 hn rfl p
  | succ n ih =>
    intro hn p
    by_cases h0 : (n + 1) % 8 = 0
    · exact caseA (n + 1) hn h0 p
    · have hk : (n + 1) % 8 = n % 8 + 1 := by omega
      have hgi : gi ⟨n + 1, hn⟩ = gi ⟨n, Nat.lt_of_succ_lt hn⟩ :=
        Fin.ext (by show (n + 1) / 8 = n / 8; omega)
      have hgj : gj ⟨n + 1, hn⟩ = KInduct.jOf (n % 8 + 1) :=
        Fin.ext (by show (n + 1) % 8 = (n % 8 + 1) % 8; omega)
      by_cases h7 : (n + 1) % 8 = 7
      · refine (congrArg (fun o => π o (ix2 p 0)) (outsAt0_C m c ⟨n + 1, hn⟩ h0 h7)).trans ?_
        refine (hC ⟨n + 1, hn⟩ _ _ _ p).trans ?_
        rw [hgj, hgi, hk, Finset.sum_range_succ]
        exact congrArg (· + ∑ q : Fin 1024, T (R (gi ⟨n, Nat.lt_of_succ_lt hn⟩) p) (C (KInduct.jOf (n % 8 + 1)) q))
          (ih (Nat.lt_of_succ_lt hn) p)
      · refine (congrArg (fun o => π o (ix2 p 0)) (outsAt0_B m c ⟨n + 1, hn⟩ h0 h7)).trans ?_
        refine (hB ⟨n + 1, hn⟩ _ _ _ p).trans ?_
        rw [hgj, hgi, hk, Finset.sum_range_succ]
        exact congrArg (· + ∑ q : Fin 1024, T (R (gi ⟨n, Nat.lt_of_succ_lt hn⟩) p) (C (KInduct.jOf (n % 8 + 1)) q))
          (ih (Nat.lt_of_succ_lt hn) p)

/-! ## The four running sums

Each window's block at a point holds the rows of the point's row or column block, and the grid coordinates are the
block numbers; so each case's value is the tile's partial sum of the specification's terms, added to zero or to what
the point before left. -/

theorem KInduct.A_1 (t : Fin cfg0.N) (h0 : cond0_0 (grid0.coords t)) (h1 : ¬cond0_1 (grid0.coords t)) (p : Fin 512) :
    (outA m c t h0 h1).2.1 (ix2 p 0) = 0 + ∑ q : Fin 1024, Spec.ap (X m c) (Lb m c) (R (gi t) p) (C (gj t) q) := by
  have e := congrFun (outA_1 m c t h0 h1) (ix2 p 0)
  rw [coord0_word t, coord1_word t] at e
  refine e.trans ((pay15_apply (X m c) (Lb m c) (gi t) (gj t) (iblk m c 0 t) (iblk m c 1 t) (iblk m c 2 t) (iblk m c 3 t) (iblk0_apply m c t) (iblk1_apply m c t) (iblk2_apply m c t) (iblk3_apply m c t) (k0_pay7 (F := Ideal)) p).trans ?_)
  rw [pay7_eq]

theorem KInduct.B_1 (t : Fin cfg0.N) (h0 : ¬cond0_0 (grid0.coords t)) (h1 : ¬cond0_1 (grid0.coords t)) (o : Outs Ideal) (p : Fin 512) :
    (outB m c t h0 h1 o).2.1 (ix2 p 0) = o.2.1 (ix2 p 0) + ∑ q : Fin 1024, Spec.ap (X m c) (Lb m c) (R (gi t) p) (C (gj t) q) := by
  have e := congrFun (outB_1 m c t h0 h1 o) (ix2 p 0)
  rw [coord0_word t, coord1_word t] at e
  exact e.trans (pay15_apply (X m c) (Lb m c) (gi t) (gj t) (iblk m c 0 t) (iblk m c 1 t) (iblk m c 2 t) (iblk m c 3 t) (iblk0_apply m c t) (iblk1_apply m c t) (iblk2_apply m c t) (iblk3_apply m c t) o.2.1 p)

theorem KInduct.C_1 (t : Fin cfg0.N) (h0 : ¬cond0_0 (grid0.coords t)) (h1 : cond0_1 (grid0.coords t)) (o : Outs Ideal) (p : Fin 512) :
    (outC m c t h0 h1 o).2.1 (ix2 p 0) = o.2.1 (ix2 p 0) + ∑ q : Fin 1024, Spec.ap (X m c) (Lb m c) (R (gi t) p) (C (gj t) q) := by
  have e := congrFun (outC_1 m c t h0 h1 o) (ix2 p 0)
  rw [coord0_word t, coord1_word t] at e
  exact e.trans (pay15_apply (X m c) (Lb m c) (gi t) (gj t) (iblk m c 0 t) (iblk m c 1 t) (iblk m c 2 t) (iblk m c 3 t) (iblk0_apply m c t) (iblk1_apply m c t) (iblk2_apply m c t) (iblk3_apply m c t) o.2.1 p)

theorem KInduct.A_2 (t : Fin cfg0.N) (h0 : cond0_0 (grid0.coords t)) (h1 : ¬cond0_1 (grid0.coords t)) (p : Fin 512) :
    (outA m c t h0 h1).2.2.1 (ix2 p 0) = 0 + ∑ q : Fin 1024, (fun r c' => if Spec.pos (Lb m c) r c' then (1 : EReal) else 0) (R (gi t) p) (C (gj t) q) := by
  have e := congrFun (outA_2 m c t h0 h1) (ix2 p 0)
  rw [coord0_word t, coord1_word t, pay1_eq] at e
  refine e.trans ((pay16_apply (Lb m c) (gi t) (gj t) (iblk m c 2 t) (iblk m c 3 t) (iblk2_apply m c t) (iblk3_apply m c t) (k0_pay8 (F := Ideal)) p).trans ?_)
  rw [pay8_eq]

theorem KInduct.B_2 (t : Fin cfg0.N) (h0 : ¬cond0_0 (grid0.coords t)) (h1 : ¬cond0_1 (grid0.coords t)) (o : Outs Ideal) (p : Fin 512) :
    (outB m c t h0 h1 o).2.2.1 (ix2 p 0) = o.2.2.1 (ix2 p 0) + ∑ q : Fin 1024, (fun r c' => if Spec.pos (Lb m c) r c' then (1 : EReal) else 0) (R (gi t) p) (C (gj t) q) := by
  have e := congrFun (outB_2 m c t h0 h1 o) (ix2 p 0)
  rw [coord0_word t, coord1_word t, pay1_eq] at e
  exact e.trans (pay16_apply (Lb m c) (gi t) (gj t) (iblk m c 2 t) (iblk m c 3 t) (iblk2_apply m c t) (iblk3_apply m c t) o.2.2.1 p)

theorem KInduct.C_2 (t : Fin cfg0.N) (h0 : ¬cond0_0 (grid0.coords t)) (h1 : cond0_1 (grid0.coords t)) (o : Outs Ideal) (p : Fin 512) :
    (outC m c t h0 h1 o).2.2.1 (ix2 p 0) = o.2.2.1 (ix2 p 0) + ∑ q : Fin 1024, (fun r c' => if Spec.pos (Lb m c) r c' then (1 : EReal) else 0) (R (gi t) p) (C (gj t) q) := by
  have e := congrFun (outC_2 m c t h0 h1 o) (ix2 p 0)
  rw [coord0_word t, coord1_word t, pay1_eq] at e
  exact e.trans (pay16_apply (Lb m c) (gi t) (gj t) (iblk m c 2 t) (iblk m c 3 t) (iblk2_apply m c t) (iblk3_apply m c t) o.2.2.1 p)

theorem KInduct.A_3 (t : Fin cfg0.N) (h0 : cond0_0 (grid0.coords t)) (h1 : ¬cond0_1 (grid0.coords t)) (p : Fin 512) :
    (outA m c t h0 h1).2.2.2.1 (ix2 p 0) = 0 + ∑ q : Fin 1024, (fun r c' => Spec.lm (X m c) r c' * Spec.wt (X m c) (Lb m c) r c') (R (gi t) p) (C (gj t) q) := by
  have e := congrFun (outA_3 m c t h0 h1) (ix2 p 0)
  refine e.trans ((pay4_apply (X m c) (Lb m c) (gi t) (gj t) (iblk m c 0 t) (iblk m c 1 t) (iblk m c 2 t) (iblk m c 3 t) (iblk0_apply m c t) (iblk1_apply m c t) (iblk2_apply m c t) (iblk3_apply m c t) (k0_pay9 (F := Ideal)) p).trans ?_)
  rw [pay9_eq]

theorem KInduct.B_3 (t : Fin cfg0.N) (h0 : ¬cond0_0 (grid0.coords t)) (h1 : ¬cond0_1 (grid0.coords t)) (o : Outs Ideal) (p : Fin 512) :
    (outB m c t h0 h1 o).2.2.2.1 (ix2 p 0) = o.2.2.2.1 (ix2 p 0) + ∑ q : Fin 1024, (fun r c' => Spec.lm (X m c) r c' * Spec.wt (X m c) (Lb m c) r c') (R (gi t) p) (C (gj t) q) := by
  have e := congrFun (outB_3 m c t h0 h1 o) (ix2 p 0)
  exact e.trans (pay4_apply (X m c) (Lb m c) (gi t) (gj t) (iblk m c 0 t) (iblk m c 1 t) (iblk m c 2 t) (iblk m c 3 t) (iblk0_apply m c t) (iblk1_apply m c t) (iblk2_apply m c t) (iblk3_apply m c t) o.2.2.2.1 p)

theorem KInduct.C_3 (t : Fin cfg0.N) (h0 : ¬cond0_0 (grid0.coords t)) (h1 : cond0_1 (grid0.coords t)) (o : Outs Ideal) (p : Fin 512) :
    (outC m c t h0 h1 o).2.2.2.1 (ix2 p 0) = o.2.2.2.1 (ix2 p 0) + ∑ q : Fin 1024, (fun r c' => Spec.lm (X m c) r c' * Spec.wt (X m c) (Lb m c) r c') (R (gi t) p) (C (gj t) q) := by
  have e := congrFun (outC_3 m c t h0 h1 o) (ix2 p 0)
  exact e.trans (pay4_apply (X m c) (Lb m c) (gi t) (gj t) (iblk m c 0 t) (iblk m c 1 t) (iblk m c 2 t) (iblk m c 3 t) (iblk0_apply m c t) (iblk1_apply m c t) (iblk2_apply m c t) (iblk3_apply m c t) o.2.2.2.1 p)

theorem KInduct.A_4 (t : Fin cfg0.N) (h0 : cond0_0 (grid0.coords t)) (h1 : ¬cond0_1 (grid0.coords t)) (p : Fin 512) :
    (outA m c t h0 h1).2.2.2.2 (ix2 p 0) = 0 + ∑ q : Fin 1024, Spec.wt (X m c) (Lb m c) (R (gi t) p) (C (gj t) q) := by
  have e := congrFun (outA_4 m c t h0 h1) (ix2 p 0)
  refine e.trans ((pay5_apply (X m c) (Lb m c) (gi t) (gj t) (iblk m c 0 t) (iblk m c 1 t) (iblk m c 2 t) (iblk m c 3 t) (iblk0_apply m c t) (iblk1_apply m c t) (iblk2_apply m c t) (iblk3_apply m c t) (k0_pay10 (F := Ideal)) p).trans ?_)
  rw [pay10_eq]

theorem KInduct.B_4 (t : Fin cfg0.N) (h0 : ¬cond0_0 (grid0.coords t)) (h1 : ¬cond0_1 (grid0.coords t)) (o : Outs Ideal) (p : Fin 512) :
    (outB m c t h0 h1 o).2.2.2.2 (ix2 p 0) = o.2.2.2.2 (ix2 p 0) + ∑ q : Fin 1024, Spec.wt (X m c) (Lb m c) (R (gi t) p) (C (gj t) q) := by
  have e := congrFun (outB_4 m c t h0 h1 o) (ix2 p 0)
  exact e.trans (pay5_apply (X m c) (Lb m c) (gi t) (gj t) (iblk m c 0 t) (iblk m c 1 t) (iblk m c 2 t) (iblk m c 3 t) (iblk0_apply m c t) (iblk1_apply m c t) (iblk2_apply m c t) (iblk3_apply m c t) o.2.2.2.2 p)

theorem KInduct.C_4 (t : Fin cfg0.N) (h0 : ¬cond0_0 (grid0.coords t)) (h1 : cond0_1 (grid0.coords t)) (o : Outs Ideal) (p : Fin 512) :
    (outC m c t h0 h1 o).2.2.2.2 (ix2 p 0) = o.2.2.2.2 (ix2 p 0) + ∑ q : Fin 1024, Spec.wt (X m c) (Lb m c) (R (gi t) p) (C (gj t) q) := by
  have e := congrFun (outC_4 m c t h0 h1 o) (ix2 p 0)
  exact e.trans (pay5_apply (X m c) (Lb m c) (gi t) (gj t) (iblk m c 0 t) (iblk m c 1 t) (iblk m c 2 t) (iblk m c 3 t) (iblk0_apply m c t) (iblk1_apply m c t) (iblk2_apply m c t) (iblk3_apply m c t) o.2.2.2.2 p)

/-! ## After each point, and after a row block's last point -/

/-- After point t the running sum of the hinge terms holds the partial sums of column blocks 0, …, t mod 8. -/
theorem sum1_at (t : Fin cfg0.N) (p : Fin 512) :
    (outsAt0 m c t.val t.isLt).2.1 (ix2 p 0)
      = ∑ j' ∈ Finset.range (t.val % 8 + 1), ∑ q : Fin 1024, Spec.ap (X m c) (Lb m c) (R (gi t) p) (C (KInduct.jOf j') q) :=
  KInduct.sums_induct m c (fun o => o.2.1) (Spec.ap (X m c) (Lb m c))
    (KInduct.A_1 m c) (KInduct.B_1 m c) (KInduct.C_1 m c) t.val t.isLt p

/-- After point t the running sum of the ones of the positives holds the partial sums of column blocks 0, …, t mod 8. -/
theorem sum2_at (t : Fin cfg0.N) (p : Fin 512) :
    (outsAt0 m c t.val t.isLt).2.2.1 (ix2 p 0)
      = ∑ j' ∈ Finset.range (t.val % 8 + 1), ∑ q : Fin 1024, (if Spec.pos (Lb m c) (R (gi t) p) (C (KInduct.jOf j') q) then (1 : EReal) else 0) :=
  KInduct.sums_induct m c (fun o => o.2.2.1) (fun r c' => if Spec.pos (Lb m c) r c' then (1 : EReal) else 0)
    (KInduct.A_2 m c) (KInduct.B_2 m c) (KInduct.C_2 m c) t.val t.isLt p

/-- After point t the running sum of the weighted α − d holds the partial sums of column blocks 0, …, t mod 8. -/
theorem sum3_at (t : Fin cfg0.N) (p : Fin 512) :
    (outsAt0 m c t.val t.isLt).2.2.2.1 (ix2 p 0)
      = ∑ j' ∈ Finset.range (t.val % 8 + 1), ∑ q : Fin 1024, Spec.lm (X m c) (R (gi t) p) (C (KInduct.jOf j') q) * Spec.wt (X m c) (Lb m c) (R (gi t) p) (C (KInduct.jOf j') q) :=
  KInduct.sums_induct m c (fun o => o.2.2.2.1) (fun r c' => Spec.lm (X m c) r c' * Spec.wt (X m c) (Lb m c) r c')
    (KInduct.A_3 m c) (KInduct.B_3 m c) (KInduct.C_3 m c) t.val t.isLt p

/-- After point t the running sum of the weights holds the partial sums of column blocks 0, …, t mod 8. -/
theorem sum4_at (t : Fin cfg0.N) (p : Fin 512) :
    (outsAt0 m c t.val t.isLt).2.2.2.2 (ix2 p 0)
      = ∑ j' ∈ Finset.range (t.val % 8 + 1), ∑ q : Fin 1024, Spec.wt (X m c) (Lb m c) (R (gi t) p) (C (KInduct.jOf j') q) :=
  KInduct.sums_induct m c (fun o => o.2.2.2.2) (Spec.wt (X m c) (Lb m c))
    (KInduct.A_4 m c) (KInduct.B_4 m c) (KInduct.C_4 m c) t.val t.isLt p

/-- The partial sums of all eight column blocks are the sum over all 8192 columns. -/
theorem KInduct.full_sum (T : Fin 8192 → Fin 8192 → EReal) (r : Fin 8192) :
    ∑ j' ∈ Finset.range (7 + 1), ∑ q : Fin 1024, T r (C (KInduct.jOf j') q) = ∑ c' : Fin 8192, T r c' := by
  show ∑ j' ∈ Finset.range 8, ∑ q : Fin 1024, T r (C (KInduct.jOf j') q) = _
  rw [sum_cols (fun c' => T r c'), Finset.sum_range (fun j' => ∑ q : Fin 1024, T r (C (KInduct.jOf j') q))]
  exact Finset.sum_congr rfl fun j _ => by rw [KInduct.jOf_val]

/-- After a row block's last point the running sum of the hinge terms is the row's sum over all columns. -/
theorem sum1_last (t : Fin cfg0.N) (h7 : t.val % 8 = 7) (p : Fin 512) :
    (outsAt0 m c t.val t.isLt).2.1 (ix2 p 0) = Spec.apSum (X m c) (Lb m c) (R (gi t) p) :=
  (sum1_at m c t p).trans (by rw [h7]; exact KInduct.full_sum (Spec.ap (X m c) (Lb m c)) (R (gi t) p))

/-- After a row block's last point the running sum of the ones of the positives is the row's sum over all columns. -/
theorem sum2_last (t : Fin cfg0.N) (h7 : t.val % 8 = 7) (p : Fin 512) :
    (outsAt0 m c t.val t.isLt).2.2.1 (ix2 p 0) = Spec.cnt (Lb m c) (R (gi t) p) :=
  (sum2_at m c t p).trans (by rw [h7]; exact KInduct.full_sum (fun r c' => if Spec.pos (Lb m c) r c' then (1 : EReal) else 0) (R (gi t) p))

/-- After a row block's last point the running sum of the weighted α − d is the row's sum over all columns. -/
theorem sum3_last (t : Fin cfg0.N) (h7 : t.val % 8 = 7) (p : Fin 512) :
    (outsAt0 m c t.val t.isLt).2.2.2.1 (ix2 p 0) = Spec.anSum (X m c) (Lb m c) (R (gi t) p) :=
  (sum3_at m c t p).trans (by rw [h7]; exact KInduct.full_sum (fun r c' => Spec.lm (X m c) r c' * Spec.wt (X m c) (Lb m c) r c') (R (gi t) p))

/-- After a row block's last point the running sum of the weights is the row's sum over all columns. -/
theorem sum4_last (t : Fin cfg0.N) (h7 : t.val % 8 = 7) (p : Fin 512) :
    (outsAt0 m c t.val t.isLt).2.2.2.2 (ix2 p 0) = Spec.wSum (X m c) (Lb m c) (R (gi t) p) :=
  (sum4_at m c t p).trans (by rw [h7]; exact KInduct.full_sum (Spec.wt (X m c) (Lb m c)) (R (gi t) p))

/-- After a row block's last point the output block holds the rows' losses. -/
theorem loss_at (t : Fin cfg0.N) (h7 : t.val % 8 = 7) (p : Fin 512) :
    (outsAt0 m c t.val t.isLt).1 (ix2 p 0) = Spec.loss (X m c) (Lb m c) (R (gi t) p) := by
  have h0 : ¬t.val % 8 = 0 := by omega
  have e0 : (outsAt0 m c t.val t.isLt).1
      = k0_pay6 (outsAt0 m c t.val t.isLt).2.1 (outsAt0 m c t.val t.isLt).2.2.1
          (outsAt0 m c t.val t.isLt).2.2.2.1 (outsAt0 m c t.val t.isLt).2.2.2.2 := by
    rw [outsAt0_C m c t h0 h7]
    exact outC_0' m c t _ _ _
  rw [e0]
  refine (pay6_apply _ _ _ _ p).trans ?_
  rw [sum1_last m c t h7 p, sum2_last m c t h7 p, sum3_last m c t h7 p, sum4_last m c t h7 p]
  rfl

end Cert.KernelIdeal.KValue

end
-- ==== Proof.KValueOut.lean ====
/-
  The output array after the region: row by row, the loss of that row. Each row block's losses are what the
  finishing point of that block leaves in the output block, and the sixteen finishing points' blocks tile the array.
-/
import proofs.«144597_j3556232921179_1_alg».proof.Proof.KValueArr
import proofs.«144597_j3556232921179_1_alg».proof.Proof.KInduct

set_option maxRecDepth 16384

noncomputable section

namespace Cert.KernelIdeal.KValue

open Idealize.ShloMosaic Idealize.ShloMosaic.TcCoe Idealize.SL.Sem
open Cert.KernelIdeal Cert.KernelIdeal.Gen Cert.BlockMath

variable (m : (ℓ : Loc nD τ sig) → Buf (Elt Ideal) ℓ)

/-- The column of row losses, as contents of the output array. -/
def lossCol (c : Dev nD) : Buf (Elt Ideal) ((c : Thread nD τ).loc main_v2) :=
  fun y => Cert.Spec.loss (X m c) (Lb m c) (y 0)

theorem kernel_out (c : Dev nD) : (dats (F := Ideal) m 0 c).arrAt 4 cfg0.N = lossCol m c :=
  arr_of_blocks m c (lossCol m c) (fun t h7 p => loss_at m c t h7 p)

end Cert.KernelIdeal.KValue

end
-- ==== Proof.KFinal.lean ====
/-
  The idealized kernel's result as one function of the arguments: after the region the output array holds, row by
  row, the loss of that row; the host then sums the column and divides by the number of rows, which is the mean loss.
-/
import proofs.«144597_j3556232921179_1_alg».proof.Proof.FrameEndI
import proofs.«144597_j3556232921179_1_alg».proof.Proof.KTail
import proofs.«144597_j3556232921179_1_alg».proof.Proof.KValueOut
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The last host operation's result: the column sum of the output array divided by the row count. -/
theorem W3_v4 (c : Dev nD) :
    W3 m c (Proc.devRef .tc main_v4)
      = Host.divf (F := Ideal) (Host.reduceAdd (F := Ideal) ((dats m 0 c).arrAt 4 cfg0.N) (constant (F := Ideal) S_ .f32 0x00000000#32) reducesTo_S8192x1_S_d0_1 h_S_)
          (constant (F := Ideal) S_ .f32 0x46000000#32) := by
  show StableHlo.after (hostOps1 (F := Ideal)) (W2 m c) (Proc.devRef .tc main_v4) = _
  after_results
  rw [W2_v2]

/-- The kernel's result is the mean loss. -/
theorem result_eq (c : Dev nD) : W3 m c (Proc.devRef .tc main_v4) = fun _ => Cert.Spec.result (X m c) (Lb m c) := by
  rw [W3_v4, kernel_out m c, Cert.KTail.tail_eq]
  rfl

/-- The run, read: the result at the mean loss, the arguments unchanged. -/
theorem run : θ_run defs (onTc (τ := τ) (main (F := Ideal))) ⟨m, fun _ => 0, ρ⟩ (fun r => ∀ c : Dev nD,
      r.2.mem ((c.tc : Thread nD τ).loc main_v4) = (fun _ => Cert.Spec.result (X m c) (Lb m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_v4 rfl)).trans (result_eq m c),
       (h c _ (mem_uc main_arg0 rfl)).trans (W3_kept m c main_arg0 (by decide) (by decide) (by decide)),
       (h c _ (mem_uc main_arg1 rfl)).trans (W3_kept m c main_arg1 (by decide) (by decide) (by decide))⟩)
    (run_main m ρ)

end Cert.KernelIdeal.KValue

end
-- ==== Proof.RefImports.lean ====
/- The reference's run and its read-at-an-index lemmas, gathered for the modules that compare the two programs. -/
import proofs.«144597_j3556232921179_1_alg».proof.Proof.Gen.ReferenceIdeal.Run
import proofs.«144597_j3556232921179_1_alg».proof.Proof.Gen.ReferenceIdeal.Read
-- ==== Proof.RefSideXn.lean ====
/-
  The reference's normalised features and their squared row lengths, read at coordinates.

  Row r of the input is divided by its Euclidean norm shifted by a small constant; the host's row sum
  starts from the zero word, which is the extended real 0, so it is the plain finite sum.
-/
import proofs.«144597_j3556232921179_1_alg».proof.Proof.RefImports
import proofs.«144597_j3556232921179_1_alg».proof.Proof.Spec

noncomputable section

namespace Cert.RefSide

open Cert.ReferenceIdeal Cert.ReferenceIdeal.Read Idealize.ShloMosaic Idealize.ShloMosaic.ValueIdx

/-- The feature matrix as a function of its two coordinates. -/
abbrev X (x0 : (⟨S8192x256, .f32⟩ : BufTy).Contents (Elt Ideal)) : Fin 8192 → Fin 256 → EReal :=
  fun r k => x0 (ix2 r k)

/-- The labels as a function of the row. -/
abbrev Lb (x1 : (⟨S8192, .i32⟩ : BufTy).Contents (Elt Ideal)) : Fin 8192 → BitVec 32 :=
  fun r => x1 (ix1 r)

theorem idx_norm (r : Fin 8192) (k k' : Fin 256) :
    idx_main_call0_v1 (idx_main_call0_v2 (idx_main_v3 (ix2 r k))) k' = ix2 r k' :=
  funext fun a => Fin.ext (by match a with | ⟨0, _⟩ => rfl | ⟨1, _⟩ => rfl)

/-- The shifted norm of row r, as the reference computes it. -/
theorem v2_at (x0 : (⟨S8192x256, .f32⟩ : BufTy).Contents (Elt Ideal)) (r : Fin 8192) (k : Fin 256) :
    val_main_v2 (F := Ideal) x0 (idx_main_v3 (ix2 r k)) = Spec.nrm (X x0) r := by
  rw [val_main_v2_apply, val_main_v0_apply, val_main_call0_v2_apply, val_main_call0_v1_apply, val_main_v1_apply,
    val_main_cst_apply, val_main_call0_cst_apply]
  simp only [val_main_call0_v0_apply, idx_norm, Ideal.ofBits_def, Ideal.addf_def, Ideal.mulf_def,
    Ideal.hostUnary_sqrt_def, Ideal.ofBits_zero_f32, zero_add]
  rfl

/-- The normalised features. -/
theorem v4_at (x0 : (⟨S8192x256, .f32⟩ : BufTy).Contents (Elt Ideal)) (r : Fin 8192) (k : Fin 256) :
    val_main_v4 (F := Ideal) x0 (ix2 r k) = Spec.xn (X x0) r k := by
  rw [val_main_v4_apply, val_main_v3_apply, v2_at]
  rfl

theorem idx_sq (r : Fin 8192) (k : Fin 256) : idx_main_v6 (ix1 r) k = ix2 r k :=
  funext fun a => Fin.ext (by match a with | ⟨0, _⟩ => rfl | ⟨1, _⟩ => rfl)

/-- The squared length of a normalised row. -/
theorem v6_at (x0 : (⟨S8192x256, .f32⟩ : BufTy).Contents (Elt Ideal)) (r : Fin 8192) :
    val_main_v6 (F := Ideal) x0 (ix1 r) = Spec.sq (X x0) r := by
  rw [val_main_v6_apply, val_main_cst_0_apply]
  simp only [val_main_v5_apply, idx_sq, v4_at, Ideal.ofBits_def, Ideal.mulf_def, Ideal.ofBits_zero_f32, zero_add]
  rfl

end Cert.RefSide

end
-- ==== Proof.RefSideDist.lean ====
/-
  The reference's inner products and clamped distances of normalised rows, read at coordinates.

  The matrix product of the normalised features with their transpose is, at (r, c), the inner product of
  rows r and c. The squared distance |r|² + |c|² − 2⟨r, c⟩ is clamped below (the reference writes the
  clamp as max(eps, ·), the specification as max(·, eps): the maximum commutes) and rooted.
-/
import proofs.«144597_j3556232921179_1_alg».proof.Proof.RefSideXn

noncomputable section

namespace Cert.RefSide

open Cert.ReferenceIdeal Cert.ReferenceIdeal.Read Idealize.ShloMosaic Idealize.ShloMosaic.ValueIdx

theorem lidx_dot (r c : Fin 8192) (k : Fin 256) : lidx_main_v13 (ix2 r c) k = ix2 r k :=
  funext fun a => Fin.ext (by match a with | ⟨0, _⟩ => rfl | ⟨1, _⟩ => rfl)

theorem ridx_dot (r c : Fin 8192) (k : Fin 256) : idx_main_v12 (ridx_main_v13 (ix2 r c) k) = ix2 c k :=
  funext fun a => Fin.ext (by match a with | ⟨0, _⟩ => rfl | ⟨1, _⟩ => rfl)

/-- The inner product of two normalised rows. -/
theorem v13_at (x0 : (⟨S8192x256, .f32⟩ : BufTy).Contents (Elt Ideal)) (r c : Fin 8192) :
    val_main_v13 (F := Ideal) x0 (ix2 r c) = Spec.dot (X x0) r c := by
  rw [val_main_v13_apply]
  simp only [val_main_v12_apply, lidx_dot, ridx_dot, v4_at]
  rfl

theorem idx_row (r c : Fin 8192) : idx_main_v7 (idx_main_v9 (ix2 r c)) = ix1 r :=
  funext fun a => Fin.ext (by match a with | ⟨0, _⟩ => rfl)

theorem idx_col (r c : Fin 8192) : idx_main_v8 (idx_main_v10 (ix2 r c)) = ix1 c :=
  funext fun a => Fin.ext (by match a with | ⟨0, _⟩ => rfl)

/-- The clamped distance of rows r and c. -/
theorem v18_at (x0 : (⟨S8192x256, .f32⟩ : BufTy).Contents (Elt Ideal)) (r c : Fin 8192) :
    val_main_v18 (F := Ideal) x0 (ix2 r c) = Spec.dist (X x0) r c := by
  rw [val_main_v18_apply, val_main_v17_apply, val_main_call1_v1_apply, val_main_call1_v0_apply, val_main_cst_2_apply,
    val_main_v16_apply, val_main_v11_apply, val_main_v9_apply, val_main_v7_apply, val_main_v10_apply, val_main_v8_apply,
    val_main_v15_apply, val_main_v14_apply, val_main_cst_1_apply, idx_row, idx_col, v6_at, v6_at, v13_at]
  simp only [Ideal.ofBits_def, Ideal.addf_def, Ideal.subf_def, Ideal.mulf_def, Ideal.maximumf_def,
    Ideal.hostUnary_sqrt_def]
  rw [max_comm]
  rfl

end Cert.RefSide

end
-- ==== Proof.RefSideMask.lean ====
/-
  The reference's pair masks, read at coordinates, as the bit of a Boolean.

  Labels are compared entrywise on two broadcasts (row r against column c); the diagonal is found by comparing
  the row counter with the column counter (both below 2^32, so the words are equal exactly when the counters are).
  A pair is positive when the labels agree off the diagonal, negative when the labels differ.
-/
import proofs.«144597_j3556232921179_1_alg».proof.Proof.RefSideXn

noncomputable section

namespace Cert.RefSide

open Cert.ReferenceIdeal Cert.ReferenceIdeal.Gen Cert.ReferenceIdeal.Read Idealize.ShloMosaic Idealize.ShloMosaic.ValueIdx

theorem ofBool_and (a b : Bool) : IntOp.andi (BitVec.ofBool a) (BitVec.ofBool b) = BitVec.ofBool (a && b) := by
  cases a <;> cases b <;> decide

theorem ofBool_not (a : Bool) : ~~~(BitVec.ofBool a) = BitVec.ofBool (!a) := by
  cases a <;> decide

/-- Selecting on the bit of a Boolean is the conditional. -/
theorem select_ofBool {α : Type} (b : Bool) (u v : α) : Scalar.select (BitVec.ofBool b) u v = if b then u else v := by
  cases b
  · exact if_neg (by decide)
  · exact if_pos rfl

/-- Equality of 32-bit words as the bit of the decided equation. -/
theorem cmpi_eq (a b : BitVec 32) : IntOp.cmpi .eq a b = BitVec.ofBool (decide (a = b)) := by
  unfold IntOp.cmpi
  exact congrArg BitVec.ofBool (beq_eq_decide a b)

/-- Row and column counters below 2^32 are equal as words exactly when they are equal. -/
theorem counter_eq (r c : Fin 8192) :
    IntOp.cmpi .eq (IntOp.addi (BitVec.ofNat 32 r.val) 0#32) (BitVec.ofNat 32 c.val) = BitVec.ofBool (decide (r = c)) := by
  rw [cmpi_eq]
  refine congrArg BitVec.ofBool (decide_eq_decide.2 ⟨fun h => ?_, fun h => by rw [h]; exact BitVec.add_zero _⟩)
  unfold IntOp.addi at h
  rw [BitVec.add_zero] at h
  have h' := congrArg BitVec.toNat h
  simp only [BitVec.toNat_ofNat] at h'
  have := r.isLt
  have := c.isLt
  exact Fin.ext (by omega)

theorem idx_lrow (r c : Fin 8192) : idx_main_v19 (idx_main_v21 (ix2 r c)) = ix1 r :=
  funext fun a => Fin.ext (by match a with | ⟨0, _⟩ => rfl)

theorem idx_lcol (r c : Fin 8192) : idx_main_v20 (idx_main_v22 (ix2 r c)) = ix1 c :=
  funext fun a => Fin.ext (by match a with | ⟨0, _⟩ => rfl)

/-- The labels of rows r and c agree. -/
theorem v23_at (x1 : (⟨S8192, .i32⟩ : BufTy).Contents (Elt Ideal)) (r c : Fin 8192) :
    val_main_v23 (F := Ideal) x1 (ix2 r c) = BitVec.ofBool (decide (Lb x1 r = Lb x1 c)) := by
  rw [val_main_v23_apply, val_main_v21_apply, val_main_v19_apply, val_main_v22_apply, val_main_v20_apply,
    idx_lrow, idx_lcol, cmpi_eq]

/-- Off the diagonal. -/
theorem v29_at (r c : Fin 8192) :
    val_main_v29 (F := Ideal) (ix2 r c) = BitVec.ofBool (decide (r ≠ c)) := by
  rw [val_main_v29_apply, val_main_v28_apply, val_main_v27_apply, val_main_v24_apply, val_main_v25_apply,
    val_main_v26_apply, val_main_c_apply]
  show ~~~(IntOp.cmpi .eq (IntOp.addi (BitVec.ofNat 32 r.val) 0#32) (BitVec.ofNat 32 c.val)) = _
  rw [counter_eq, ofBool_not]
  exact congrArg BitVec.ofBool (by simp)

/-- The positive-pair mask. -/
theorem v30_at (x1 : (⟨S8192, .i32⟩ : BufTy).Contents (Elt Ideal)) (r c : Fin 8192) :
    val_main_v30 (F := Ideal) x1 (ix2 r c) = BitVec.ofBool (Spec.pos (Lb x1) r c) := by
  rw [val_main_v30_apply, v23_at, v29_at, ofBool_and]
  rfl

/-- The negative-pair mask. -/
theorem v31_at (x1 : (⟨S8192, .i32⟩ : BufTy).Contents (Elt Ideal)) (r c : Fin 8192) :
    val_main_v31 (F := Ideal) x1 (ix2 r c) = BitVec.ofBool (Spec.neg (Lb x1) r c) := by
  rw [val_main_v31_apply, v23_at, ofBool_not]
  rfl

end Cert.RefSide

end
-- ==== Proof.RefSideSums.lean ====
/-
  The reference's per-pair terms and their row sums, read at coordinates.

  The hinge term of a pair is selected by the positive mask; the exponential weight by the negative mask
  together with the comparison of the distance against α. Selecting on the bit of a Boolean is the
  conditional. Each row sum starts from the zero word, the extended real 0, so it is the plain finite sum.
-/
import proofs.«144597_j3556232921179_1_alg».proof.Proof.RefSideDist
import proofs.«144597_j3556232921179_1_alg».proof.Proof.RefSideMask

noncomputable section

namespace Cert.RefSide

open Cert.ReferenceIdeal Cert.ReferenceIdeal.Gen Cert.ReferenceIdeal.Read Idealize.ShloMosaic Idealize.ShloMosaic.ValueIdx

theorem idx_rowsum37 (r c : Fin 8192) : idx_main_v37 (ix1 r) c = ix2 r c :=
  funext fun a => Fin.ext (by match a with | ⟨0, _⟩ => rfl | ⟨1, _⟩ => rfl)
theorem idx_rowsum54 (r c : Fin 8192) : idx_main_v54 (ix1 r) c = ix2 r c :=
  funext fun a => Fin.ext (by match a with | ⟨0, _⟩ => rfl | ⟨1, _⟩ => rfl)
theorem idx_rowsum55 (r c : Fin 8192) : idx_main_v55 (ix1 r) c = ix2 r c :=
  funext fun a => Fin.ext (by match a with | ⟨0, _⟩ => rfl | ⟨1, _⟩ => rfl)

/-- The hinge term of a pair. -/
theorem v36_at (x0 : (⟨S8192x256, .f32⟩ : BufTy).Contents (Elt Ideal)) (x1 : (⟨S8192, .i32⟩ : BufTy).Contents (Elt Ideal))
    (r c : Fin 8192) :
    val_main_v36 (F := Ideal) x0 x1 (ix2 r c) = Spec.ap (X x0) (Lb x1) r c := by
  rw [val_main_v36_apply, v30_at, val_main_v35_apply, val_main_v33_apply, v18_at, val_main_v32_apply, val_main_cst_3_apply,
    val_main_v34_apply, val_main_cst_4_apply, val_main_call2_v1_apply, val_main_call2_v0_apply, val_main_cst_5_apply,
    select_ofBool]
  simp only [Ideal.ofBits_def, Ideal.addf_def, Ideal.maximumf_def, Ideal.ofBits_zero_f32]
  rfl

/-- The sum of row r's hinge terms. -/
theorem v37_at (x0 : (⟨S8192x256, .f32⟩ : BufTy).Contents (Elt Ideal)) (x1 : (⟨S8192, .i32⟩ : BufTy).Contents (Elt Ideal))
    (r : Fin 8192) :
    val_main_v37 (F := Ideal) x0 x1 (ix1 r) = Spec.apSum (X x0) (Lb x1) r := by
  rw [val_main_v37_apply, val_main_cst_6_apply]
  simp only [idx_rowsum37, v36_at, Ideal.ofBits_def, Ideal.ofBits_zero_f32, zero_add]
  rfl

/-- The comparison of two extended reals by "less than", as the bit of the decided inequality. -/
theorem cmp_olt (a b : EReal) : Ideal.cmp .olt a b = BitVec.ofBool (decide (a < b)) := rfl

/-- The mask of the negative pairs nearer than α. -/
theorem v46_at (x0 : (⟨S8192x256, .f32⟩ : BufTy).Contents (Elt Ideal)) (x1 : (⟨S8192, .i32⟩ : BufTy).Contents (Elt Ideal))
    (r c : Fin 8192) :
    val_main_v46 (F := Ideal) x0 x1 (ix2 r c)
      = BitVec.ofBool (Spec.neg (Lb x1) r c && decide (Spec.dist (X x0) r c < Spec.alpha)) := by
  rw [val_main_v46_apply, v31_at, val_main_v45_apply, v18_at, val_main_v44_apply, val_main_cst_9_apply, Ideal.cmpf_def,
    Ideal.ofBits_def, cmp_olt, ofBool_and]
  rfl

/-- α − d. -/
theorem v48_at (x0 : (⟨S8192x256, .f32⟩ : BufTy).Contents (Elt Ideal)) (r c : Fin 8192) :
    val_main_v48 (F := Ideal) x0 (ix2 r c) = Spec.lm (X x0) r c := by
  rw [val_main_v48_apply, v18_at, val_main_v47_apply, val_main_cst_10_apply]
  rfl

/-- The exponential weight of a pair. -/
theorem v52_at (x0 : (⟨S8192x256, .f32⟩ : BufTy).Contents (Elt Ideal)) (x1 : (⟨S8192, .i32⟩ : BufTy).Contents (Elt Ideal))
    (r c : Fin 8192) :
    val_main_v52 (F := Ideal) x0 x1 (ix2 r c) = Spec.wt (X x0) (Lb x1) r c := by
  rw [val_main_v52_apply, v46_at, val_main_v51_apply, val_main_v50_apply, v48_at, val_main_v49_apply, val_main_cst_11_apply,
    val_main_call3_v1_apply, val_main_call3_v0_apply, val_main_cst_12_apply, select_ofBool]
  simp only [Ideal.ofBits_def, Ideal.mulf_def, Ideal.hostUnary_exp_def, Ideal.ofBits_zero_f32]
  rfl

/-- The weighted sum of row r's α − d. -/
theorem v54_at (x0 : (⟨S8192x256, .f32⟩ : BufTy).Contents (Elt Ideal)) (x1 : (⟨S8192, .i32⟩ : BufTy).Contents (Elt Ideal))
    (r : Fin 8192) :
    val_main_v54 (F := Ideal) x0 x1 (ix1 r) = Spec.anSum (X x0) (Lb x1) r := by
  rw [val_main_v54_apply, val_main_cst_13_apply]
  simp only [idx_rowsum54, val_main_v53_apply, v48_at, v52_at, Ideal.ofBits_def, Ideal.mulf_def, Ideal.ofBits_zero_f32,
    zero_add]
  rfl

/-- The sum of row r's weights. -/
theorem v55_at (x0 : (⟨S8192x256, .f32⟩ : BufTy).Contents (Elt Ideal)) (x1 : (⟨S8192, .i32⟩ : BufTy).Contents (Elt Ideal))
    (r : Fin 8192) :
    val_main_v55 (F := Ideal) x0 x1 (ix1 r) = Spec.wSum (X x0) (Lb x1) r := by
  rw [val_main_v55_apply, val_main_cst_14_apply]
  simp only [idx_rowsum55, v52_at, Ideal.ofBits_def, Ideal.ofBits_zero_f32, zero_add]
  rfl

end Cert.RefSide

end
-- ==== Proof.RefSideCnt.lean ====
/-
  The reference's count of positive pairs in a row.

  The positive mask is widened to 32-bit words (each 0 or 1) and summed along the row by wrapping integer
  addition, and the sum is converted to a float as a signed integer. A sum of words each 0 or 1 is the word
  of the number of ones; over 8192 terms that number is at most 8192 < 2^31, so the signed reading of the
  word is the number itself and the count is the plain sum of ones.
-/
import proofs.«144597_j3556232921179_1_alg».proof.Proof.RefSideMask

noncomputable section

namespace Cert.RefSide

open Cert.ReferenceIdeal Cert.ReferenceIdeal.Gen Cert.ReferenceIdeal.Read Idealize.ShloMosaic Idealize.ShloMosaic.ValueIdx

/-- Wrapping addition of bits widened to words: the word of the number of ones. -/
theorem fold_bits {ι : Type} [DecidableEq ι] (p : ι → Bool) (S : Finset ι) :
    S.fold IntOp.addi 0#32 (fun k => (BitVec.ofBool (p k)).setWidth 32)
      = BitVec.ofNat 32 (∑ k ∈ S, if p k then 1 else 0) := by
  induction S using Finset.induction_on with
  | empty => rfl
  | insert a s ha ih =>
    rw [Finset.fold_insert ha, Finset.sum_insert ha, ih, BitVec.ofNat_add]
    exact congrArg (· + BitVec.ofNat 32 (∑ k ∈ s, if p k then 1 else 0)) (by cases p a <;> decide)

/-- A number of ones among at most 8192 terms. -/
theorem ones_le (p : Fin 8192 → Bool) : (∑ k : Fin 8192, if p k then 1 else 0) ≤ 8192 := by
  refine (Finset.sum_le_sum (g := fun _ => 1) fun k _ => ?_).trans (by simp)
  split <;> omega

/-- The signed reading of the word of a small number is the number. -/
theorem toInt_ofNat_small (n : ℕ) (h : n ≤ 8192) : (BitVec.ofNat 32 n).toInt = (n : ℤ) := by
  rw [BitVec.toInt_eq_toNat_cond, BitVec.toNat_ofNat, Nat.mod_eq_of_lt (by omega), if_pos (by omega)]

/-- The number of ones, as an extended real, is the sum of ones. -/
theorem cast_ones {ι : Type} [DecidableEq ι] (p : ι → Bool) (S : Finset ι) :
    (((∑ k ∈ S, if p k then 1 else 0 : ℕ) : ℝ) : EReal) = ∑ k ∈ S, if p k then (1 : EReal) else 0 := by
  induction S using Finset.induction_on with
  | empty => simp
  | insert a s ha ih =>
    rw [Finset.sum_insert ha, Finset.sum_insert ha, ← ih, Nat.cast_add, EReal.coe_add]
    congr 1
    cases p a <;> simp

/-- The host's integer row sum of a [8192, 8192] array of words, as a fold over the row's columns. -/
theorem rowfold (y : (⟨S8192x8192, .i32⟩ : BufTy).Contents (Elt Ideal)) (init : (⟨S_, .i32⟩ : BufTy).Contents (Elt Ideal))
    (r : Fin 8192) :
    Host.reduce IntOp.addi y init reducesTo_S8192x8192_S8192_d1 h_S_ (ix1 r)
      = (Finset.univ : Finset (Fin 8192)).fold IntOp.addi (init (Shape.Idx.first h_S_)) (fun c => y (ix2 r c)) := by
  have h : S8192x8192.Reduces [1] S8192 := by decide
  rw [Host.reduce_eq_fold_single IntOp.addi y init reducesTo_S8192x8192_S8192_d1 h h_S_ (ix1 r)]
  show (Finset.univ : Finset (Fin 8192)).fold IntOp.addi _ (fun c => y (h.lift (ix1 r) c)) = _
  refine congrArg (Finset.fold IntOp.addi _ · _) (funext fun c => congrArg y ?_)
  exact funext fun a => Fin.ext (by match a with | ⟨0, _⟩ => rfl | ⟨1, _⟩ => rfl)

/-- The integer count of row r's positive pairs. -/
theorem v39_at (x1 : (⟨S8192, .i32⟩ : BufTy).Contents (Elt Ideal)) (r : Fin 8192) :
    val_main_v39 (F := Ideal) x1 (ix1 r)
      = BitVec.ofNat 32 (∑ c : Fin 8192, if Spec.pos (Lb x1) r c then 1 else 0) := by
  unfold val_main_v39
  rw [rowfold, val_main_c_7_apply]
  simp only [val_main_v38_apply, v30_at]
  exact fold_bits _ _

/-- The count of row r's positive pairs, as a float. -/
theorem v40_at (x1 : (⟨S8192, .i32⟩ : BufTy).Contents (Elt Ideal)) (r : Fin 8192) :
    val_main_v40 (F := Ideal) x1 (ix1 r) = Spec.cnt (Lb x1) r := by
  rw [val_main_v40_apply, v39_at]
  show (((BitVec.ofNat 32 (∑ c : Fin 8192, if Spec.pos (Lb x1) r c then 1 else 0)).toInt : ℝ) : EReal) = _
  rw [toInt_ofNat_small _ (ones_le _), Int.cast_natCast, cast_ones]
  rfl

end Cert.RefSide

end
-- ==== Proof.RefSide.lean ====
/-
  The reference's result is the specification's mean loss.

  Row r's loss is the mean hinge of its positives plus the weighted mean over its near negatives, each a
  quotient of the row sums read before. The last sum runs over the rank-one index set of the rows, which
  is the set of row numbers; it starts from the zero word, and the total is divided by the number of rows.
-/
import proofs.«144597_j3556232921179_1_alg».proof.Proof.RefSideSums
import proofs.«144597_j3556232921179_1_alg».proof.Proof.RefSideCnt

noncomputable section

namespace Cert.RefSide

open Cert.ReferenceIdeal Cert.ReferenceIdeal.Gen Cert.ReferenceIdeal.Read Idealize.ShloMosaic Idealize.ShloMosaic.ValueIdx

/-- Row r's loss. -/
theorem v59_at (x0 : (⟨S8192x256, .f32⟩ : BufTy).Contents (Elt Ideal)) (x1 : (⟨S8192, .i32⟩ : BufTy).Contents (Elt Ideal))
    (r : Fin 8192) :
    val_main_v59 (F := Ideal) x0 x1 (ix1 r) = Spec.loss (X x0) (Lb x1) r := by
  rw [val_main_v59_apply, val_main_v43_apply, val_main_v42_apply, val_main_v41_apply, val_main_cst_8_apply,
    val_main_v58_apply, val_main_v57_apply, val_main_v56_apply, val_main_cst_15_apply, v37_at, v40_at, v54_at, v55_at]
  rfl

/-- The rank-one index set of the rows is the set of row numbers. -/
def rowEquiv : Fin 8192 ≃ S8192.Idx where
  toFun r := ix1 r
  invFun j := j 0
  left_inv _ := rfl
  right_inv j := (eq_ix1 j).symm

theorem rowEquiv_apply (r : Fin 8192) : rowEquiv r = ix1 r := rfl

/-- The reference's result, at its one index, is the mean loss. -/
theorem ref_eq (x0 : (⟨S8192x256, .f32⟩ : BufTy).Contents (Elt Ideal)) (x1 : (⟨S8192, .i32⟩ : BufTy).Contents (Elt Ideal)) :
    val_main_v61 (F := Ideal) x0 x1 = fun _ => Spec.result (fun r k => x0 (ix2 r k)) (fun r => x1 (ix1 r)) := by
  funext i
  rw [val_main_v61_apply, val_main_v60_apply, val_main_cst_16_apply, val_main_cst_17_apply,
    ← Equiv.sum_comp rowEquiv (val_main_v59 (F := Ideal) x0 x1)]
  simp only [rowEquiv_apply, v59_at, Ideal.ofBits_def, Ideal.ofBits_zero_f32, zero_add]
  rfl

end Cert.RefSide

end
-- ==== Proof.lean ====
/-
  The ranked-list loss kernel against its reference, over the extended reals.

  Both programs normalise the rows of the feature matrix, form the clamped pairwise distances from the squared
  lengths and the inner products, and give each row the mean hinge of its positive pairs plus the exponentially
  weighted mean of (α − d) over its near negative pairs; the result is the mean over rows. The kernel walks a
  16 × 8 grid of (row block, column block) tiles, keeping four running sums per row block across the eight column
  blocks and storing the row block's losses at the last one; the reference forms the whole 8192 × 8192 matrices.
  Over the extended reals a finite sum may be cut into blocks and added in any grouping, the count of positives
  summed as integers and converted is the sum of the converted 0/1 words (it never exceeds 8192), and every other
  operation is applied to the same operands on both sides; so both results are one function of the arguments,
  the specification `Cert.Spec.result`, and no finiteness of the inputs is used.

  The frames: the kernel's body is run symbolically once for each of its three control cases (reset, middle,
  finish), what the running sums and the output block hold after each grid point is defined by recursion on the
  point, and @main is launched as three segments — the two reshapes, the region, the sum and division after it —,
  the feature matrix, which two windows read, held by them at complementary shares. The reference is a straight
  line of host operations, run by the generated module.
-/
import proofs.«144597_j3556232921179_1_alg».proof.Defs
import proofs.«144597_j3556232921179_1_alg».proof.Proof.FrameEndK
import proofs.«144597_j3556232921179_1_alg».proof.Proof.KFinal
import proofs.«144597_j3556232921179_1_alg».proof.Proof.RefSide
import proofs.«144597_j3556232921179_1_alg».proof.Proof.Gen.Pre_finite_inputs
import Idealize.ShloMosaic.Adequacy
import Idealize.ShloMosaic.Init

noncomputable section

namespace Cert.Proof

open Idealize.ShloMosaic Idealize.SL.Sem

/-- The kernel as printed terminates and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the mean ranked-list loss of the arguments. -/
theorem algebraic : Cert.algebraic_KernelIdeal_ReferenceIdeal := by
  intro m ρ m' ρ' _ hagree
  refine ⟨fun c => (fun _ => Cert.Spec.result (Cert.KernelIdeal.KValue.X m c) (Cert.KernelIdeal.KValue.Lb m c)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.RefSide.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
